-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x2048, .f32⟩
  | .hbm, ⟨5, _⟩ => ⟨S8192x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1024x2048, .f32⟩
  | .local _ .vmem, ⟨9, _⟩ => ⟨S1x1024x2048, .f32⟩
  | .local _ .vmem, ⟨10, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192x2048_S8x1024x2048 : S8192x2048.ShapeCasts S8x1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S1024x2048_S1x1024x2048 : S1024x2048.ShapeCasts S1x1024x2048
  shapeCasts_S8x1024x2048_S8192x2048 : S8x1024x2048.ShapeCasts S8192x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x8192.size a
  hwx0_1 : ∀ i : grid0.Coords, EltTy.bits .f32 = 32 ∨ (Rect.block (s := S8x2048x8192) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x8192.size a
  hwx0_2 : ∀ i : grid0.Coords, EltTy.bits .f32 = 32 ∨ (Rect.block (s := S8x2048x8192) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .f32 = 32 ∨ (Rect.block (s := S8x4096x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x1024x2048.size a
  hwx0_4 : ∀ i : grid0.Coords, EltTy.bits .f32 = 32 ∨ (Rect.block (s := S8x1024x2048) S1x1024x2048.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.K.Conds.lean ====
/- The branch conditions of the fused kernel's body in closed form over the grid, where its five
   windows are idle, and the staging and scratch memrefs the pipeline passes to the body. -/
import proofs.«106736_j9483287789704_2_alg».proof.Proof.Gen.Kernel.Launch
import proofs.«106736_j9483287789704_2_alg».proof.Proof.Gen.Kernel.Skeleton
import proofs.«106736_j9483287789704_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body -/

/-- The first conditional: the second grid coordinate is 0 (the scalar chain of the body, substituted). -/
abbrev cond0_0 (i : grid0.Coords) : Prop :=
  (Scalar.cmpi .ne (Scalar.extui (Scalar.cmpi .eq (BitVec.ofNat 32 (i 1).val) 0#32)) 0#32) = 1#1

/-- It holds exactly at the linear points that are multiples of 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional: the second grid coordinate is 15. -/
abbrev cond0_1 (i : grid0.Coords) : Prop := k0_cond2 i = 1#1

/-- It holds exactly at the linear points congruent to 15 modulo 16. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- First tile of a row (second coordinate 0): nothing is stored into the output window, which is idle. -/
theorem idleAt0_4_A : ∀ t : Fin cfg0.N, cond0_0 (grid0.coords t) → ¬cond0_1 (grid0.coords t) → cfg0.idle 4 (grid0.coords t) = true := by decide +kernel
/-- And its block is not written back there. -/
theorem noFlush0_4_A : ∀ t : Fin cfg0.N, cond0_0 (grid0.coords t) → ¬cond0_1 (grid0.coords t) → (cfg0.win 4).flush t = false := by decide +kernel
/-- Middle tiles: the output window is idle. -/
theorem idleAt0_4_B : ∀ t : Fin cfg0.N, ¬cond0_0 (grid0.coords t) → ¬cond0_1 (grid0.coords t) → cfg0.idle 4 (grid0.coords t) = true := by decide +kernel
/-- And its block is not written back there. -/
theorem noFlush0_4_B : ∀ t : Fin cfg0.N, ¬cond0_0 (grid0.coords t) → ¬cond0_1 (grid0.coords t) → (cfg0.win 4).flush t = false := by decide +kernel
/-- Last tile of a row (second coordinate 15): the output window is stored, hence live. -/
theorem liveAt0_4_C : ∀ t : Fin cfg0.N, ¬cond0_0 (grid0.coords t) → cond0_1 (grid0.coords t) → cfg0.idle 4 (grid0.coords t) = false := by decide +kernel

/-! ## The memrefs the body is called with -/

/-- Each window's current staging memref at the point `t`, and that it is a whole buffer. -/
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x2048 .f32 := win0_4.stage (cfg0.slots t 4)
abbrev hs0_4 (t : Fin cfg0.N) : (ms0_4 t).IsWhole := hstage0_4 ((cfg0.slots t 4).cast nbuf0_4)

/-- The accumulator: a whole scoped buffer of the kernel's own, passed beside the windows. -/
abbrev scM0_0 : Memref sig .tc .vmem S1024x2048 .f32 := Memref.whole cc0_scratch0
/-- The accumulator as a view: what it holds between points is stated through it. -/
abbrev VS0_0 : View sig .tc .vmem S1024x2048 .f32 := scM0_0.view
/-- One staging buffer of the output window, through which its contents are stated. -/
abbrev VO0_4 : View sig .tc .vmem S1x1024x2048 .f32 := (Memref.whole cc0_stg4_0 : Memref sig .tc .vmem S1x1024x2048 .f32).view

end Cert.Kernel.Hand

end
-- ==== Proof.K.RunA.lean ====
/- The body at the first tile of a row: the accumulator is reset to zero, then the tile's
   contribution is added to it; nothing is stored into the output window. -/
import proofs.«106736_j9483287789704_2_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST TILE (second grid coordinate 0). On whole memrefs — the four inputs at their contents, the output
    window at contents `xi4` that are handed back untouched, the accumulator at anything — the body runs to a
    continuation that holds the inputs as they were, the output window as it was, and the accumulator with the
    pieces `LS0` written over what it held. The pieces are the witness the symbolic run finds. -/
noncomputable def kernelRun0_A (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x256 .f32) (x2 : Vec F S1x2048x256 .f32) (x3 : Vec F S1x256x2048 .f32) :
    Σ' (L4 : List (View.Piece (Elt F) S1x1024x2048 .f32)), { LS0 : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨[], ?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunB.lean ====
/- The body at a middle tile of a row: the tile's contribution is added to the accumulator;
   nothing is stored into the output window. -/
import proofs.«106736_j9483287789704_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- MIDDLE TILE (second grid coordinate neither 0 nor 15). On whole memrefs — the four inputs at their
    contents, the output window at contents `xi4` handed back untouched, the accumulator at the contents `xs0`
    the tile before left — the body runs to a continuation that holds the inputs and the output window as
    they were and the accumulator with the pieces `LS0` written. The pieces are the witness the symbolic run finds. -/
noncomputable def kernelRun0_B (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x256 .f32) (x2 : Vec F S1x2048x256 .f32) (x3 : Vec F S1x256x2048 .f32) (xs0 : Vec F S1024x2048 .f32) :
    Σ' (L4 : List (View.Piece (Elt F) S1x1024x2048 .f32)), { LS0 : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨[], ?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunC.lean ====
/- The body at the last tile of a row: the tile's contribution is added to the accumulator,
   and the accumulator is then copied into the output window. -/
import proofs.«106736_j9483287789704_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- LAST TILE (second grid coordinate 15). On whole memrefs — the four inputs at their contents, the output
    window at anything (the body reads it before overwriting it whole), the accumulator at the contents `xs0`
    the tile before left — the body runs to a continuation that holds the inputs as they were, the output
    window with the pieces `L4` written and the accumulator with the pieces `LS0` written. The pieces are the
    witness the symbolic run finds. -/
noncomputable def kernelRun0_C (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) :
    Σ' (L4 : List (View.Piece (Elt F) S1x1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Pieces.lean ====
/- What the three cases of the body leave in the accumulator and in the output window: the pieces
   found by the runs cover their buffers, and read back they are the body's named payloads. -/
import proofs.«106736_j9483287789704_2_alg».proof.Proof.K.RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-shape access, of rank 2 and of rank 3, are the constant zero function. -/
theorem hz2 : (![0, 0] : Fin 2 → ℕ) = fun _ => 0 := by funext a; fin_cases a <;> rfl
theorem hz3 : (![0, 0, 0] : Fin 3 → ℕ) = fun _ => 0 := by funext a; fin_cases a <;> rfl

/-! ## First tile -/

/-- The pieces the first tile writes into the accumulator (two whole-shape stores) cover it. -/
theorem scover0_A_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x256 .f32) (x2 : Vec F S1x2048x256 .f32) (x3 : Vec F S1x256x2048 .f32) (y : S1024x2048.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x2048.size (by sl_kernel_rfl) y

/-- What the first tile leaves in the accumulator: its pieces read back over junk. -/
def sout0_A_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x256 .f32) (x2 : Vec F S1x2048x256 .f32) (x3 : Vec F S1x256x2048 .f32) : Vec F S1024x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- It is the tile's contribution added to the zeros just stored. -/
theorem sout0_A_0_eq (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x256 .f32) (x2 : Vec F S1x2048x256 .f32) (x3 : Vec F S1x256x2048 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x2048) hz2]
  simp only [View.readAt_eq_ld, harg2.read_unread, harg3.read_unread, harg4.read_unread, harg5.read_unread, harg7.read_unread,
    View.ld_unit_zero (S := S1x1024x2048) hz3, View.ld_unit_zero (S := S1x2048x256) hz3, View.ld_unit_zero (S := S1x256x2048) hz3,
    View.ld_unit_zero (S := S1024x2048) hz2, View.readCov_unit_zero (S := S1024x2048) _ hz2]

/-! ## Middle tiles -/

/-- The piece a middle tile writes into the accumulator (one whole-shape store) covers it. -/
theorem scover0_B_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x256 .f32) (x2 : Vec F S1x2048x256 .f32) (x3 : Vec F S1x256x2048 .f32) (xs0 : Vec F S1024x2048 .f32) (y : S1024x2048.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x2048.size (by sl_kernel_rfl) y

/-- What a middle tile leaves in the accumulator: its piece read back over junk. -/
def sout0_B_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x256 .f32) (x2 : Vec F S1x2048x256 .f32) (x3 : Vec F S1x256x2048 .f32) (xs0 : Vec F S1024x2048 .f32) : Vec F S1024x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- It is the tile's contribution added to what the accumulator held. -/
theorem sout0_B_0_eq (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x256 .f32) (x2 : Vec F S1x2048x256 .f32) (x3 : Vec F S1x256x2048 .f32) (xs0 : Vec F S1024x2048 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_cons_unit_zero (S := S1024x2048) hz2]
  simp only [View.readAt_eq_ld, harg2.read_unread, harg3.read_unread, harg4.read_unread, harg5.read_unread, harg7.read_unread,
    View.ld_unit_zero (S := S1x1024x2048) hz3, View.ld_unit_zero (S := S1x2048x256) hz3, View.ld_unit_zero (S := S1x256x2048) hz3,
    View.ld_unit_zero (S := S1024x2048) hz2, View.readCov_unit_zero (S := S1024x2048) _ hz2]

/-! ## Last tile -/

/-- The piece the last tile writes into the accumulator covers it. -/
theorem scover0_C_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) (y : S1024x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x2048.size (by sl_kernel_rfl) y

/-- The piece the last tile writes into the output window (one whole-shape store) covers it. -/
theorem cover0_C_4 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) (y : S1x1024x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1024x2048.size (by sl_kernel_rfl) y

/-- What the last tile leaves in the accumulator: its piece read back over junk. -/
def sout0_C_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) : Vec F S1024x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- What the last tile leaves in the output window: its piece read back over junk. -/
def out0_C_4 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) : Vec F S1x1024x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The accumulator ends as the tile's contribution added to what it held. -/
theorem sout0_C_0_eq (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_cons_unit_zero (S := S1024x2048) hz2]
  simp only [View.readAt_eq_ld, harg2.read_unread, harg3.read_unread, harg4.read_unread, harg5.read_unread, harg7.read_unread,
    View.ld_unit_zero (S := S1x1024x2048) hz3, View.ld_unit_zero (S := S1x2048x256) hz3, View.ld_unit_zero (S := S1x256x2048) hz3,
    View.ld_unit_zero (S := S1024x2048) hz2, View.readCov_unit_zero (S := S1024x2048) _ hz2]

/-- The output window ends as the finished accumulator, reshaped to the window's block. -/
theorem out0_C_4_eq (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) :
    out0_C_4 c i arg2 harg2 arg3 harg3 arg4 harg4 arg5 harg5 arg6 harg6 arg7 harg7 hc0 hc1 x0 x1 x2 x3 xs0 = k0_pay3 (k0_pay2 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_cons_unit_zero (S := S1x1024x2048) hz3]
  simp only [View.readAt_eq_ld, harg2.read_unread, harg3.read_unread, harg4.read_unread, harg5.read_unread, harg7.read_unread,
    View.ld_unit_zero (S := S1x1024x2048) hz3, View.ld_unit_zero (S := S1x2048x256) hz3, View.ld_unit_zero (S := S1x256x2048) hz3,
    View.ld_unit_zero (S := S1024x2048) hz2, View.readCov_unit_zero (S := S1024x2048) _ hz2]

end Cert.Kernel.Hand

end
-- ==== Proof.K.Launch.lean ====
/-
  The launch of the kernel's @main around ANY proof data of its one pipeline.

  @main reshapes the activations `[8192, 2048]` to `[8, 1024, 2048]`, runs the kernel region over the grid of
  8 experts by 16 tiles, and reshapes the region's result back. Two of the region's five windows read the SAME array
  (the gate half and the up half of the projection weights), so the array's full share is dealt between them at the
  region's entry, half each, and joined again at its exit; every other array is its window's outright.
-/
import proofs.«106736_j9483287789704_2_alg».proof.Proof.Gen.Kernel.Launch
import Idealize.ShloMosaic.Lib.Pipeline.Frame
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The unscoped buffers' contents around the region -/

/-- Core `c`'s unscoped buffers at launch. -/
abbrev V0 (c : Dev nD) : Valuation τ sig (Elt F) := fun b => m (c, b)
/-- After the first reshape: what the region finds. -/
abbrev V1 (c : Dev nD) : Valuation τ sig (Elt F) := StableHlo.after hostOps0 (V0 m c)
/-- After the region, which changes its result array only, to `out c`. -/
abbrev V2 (out : (c : Dev nD) → Buf (Elt F) ((c : Thread nD τ).loc main_v1)) (c : Dev nD) : Valuation τ sig (Elt F) :=
  Function.update (V1 m c) main_v1 (out c)
/-- After the last reshape. -/
abbrev V3 (out : (c : Dev nD) → Buf (Elt F) ((c : Thread nD τ).loc main_v1)) (c : Dev nD) : Valuation τ sig (Elt F) :=
  StableHlo.after hostOps1 (V2 m out c)

/-- The six unscoped buffers held at a valuation, one by one. -/
theorem held_list (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1) ↦{fullShare} W main_v1) ∗ (((c : Thread nD τ).loc main_v2) ↦{fullShare} W main_v2)) := by
  rw [← Pipeline.unscopedBufs_held (Ix := Unit) (Name := ℕ) (U := UR sig nD τ) (Lvl := ℕ) c W]
  unfold unscopedBufs
  exact bigSep_eq_bigSepL_of_eq [main_arg0, main_arg1, main_arg2, main_v0, main_v1, main_v2] (by decide) (by decide) _

/-- The shares the five windows hold their arrays at: the two windows on the projection weights half each. -/
abbrev qsh : Fin 5 → PosShare TreeShare := fun | 0 => fullShare | 1 => fullShare.left | 2 => fullShare.right | 3 => fullShare | 4 => fullShare | ⟨_ + 5, h⟩ => absurd h (Nat.not_lt.2 (Nat.le_add_left _ _))

/-- Each window's share of its array: an output's is full, an input's the one named. -/
theorem share_eq {c : Dev nD} (dat : Dat τ (Elt F) Unit ℕ (UR sig nD τ) ℕ cfg0 c) (hq : dat.q = qsh) (w : Fin cfg0.W) :
    dat.share w = qsh w := by
  unfold Dat.share; rw [hq]
  match w with
  | ⟨0, _⟩ => rfl
  | ⟨1, _⟩ => rfl
  | ⟨2, _⟩ => rfl
  | ⟨3, _⟩ => rfl
  | ⟨4, _⟩ => rfl

/-- The pipeline's arrays at contents `A`, one by one, at those shares. -/
theorem arrays_list {c : Dev nD} (dat : Dat τ (Elt F) Unit ℕ (UR sig nD τ) ℕ cfg0 c) (hq : dat.q = qsh)
    (A : (w : Fin cfg0.W) → Buf (Elt F) ((cfg0.win w).arr.view.loc (c.tc : Thread nD τ))) :
    (dat.arrays A : sProp 𝕄)
      = iprop((((c.tc : Thread nD τ).loc (Pipeline.arrRef spec0 0)) ↦{fullShare} A 0) ∗ (((c.tc : Thread nD τ).loc (Pipeline.arrRef spec0 1)) ↦{fullShare.left} A 1)
          ∗ (((c.tc : Thread nD τ).loc (Pipeline.arrRef spec0 2)) ↦{fullShare.right} A 2) ∗ (((c.tc : Thread nD τ).loc (Pipeline.arrRef spec0 3)) ↦{fullShare} A 3)
          ∗ (((c.tc : Thread nD τ).loc (Pipeline.arrRef spec0 4)) ↦{fullShare} A 4)) := by
  have h : (dat.arrays A : sProp 𝕄) = bigSep Finset.univ fun w : Fin 5 => (((c.tc : Thread nD τ).loc (Pipeline.arrRef spec0 w)) ↦{qsh w} A w : sProp 𝕄) := by
    unfold Dat.arrays
    exact bigSep_congr fun w _ => by rw [(arr_whole0 w).set_eq_univ, share_eq dat hq w]
  rw [h, bigSep_W0]

/-! ## What the reshapes write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The first reshape writes its result only; -/
theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))
/-- and so does the last. -/
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.reshape_writes, Finset.singleton_subset_iff, List.mem_toFinset]; exact List.mem_map_of_mem (by decide))

theorem V1_of (c : Dev nD) (r : Ref sig .tc) (h : r ∉ ([main_v0] : List (Ref sig .tc))) : V1 m c r = V0 m c r :=
  StableHlo.after_of_writes_sub hostOps0 _ hostOps0_writes h
theorem V2_of (out : (c : Dev nD) → Buf (Elt F) ((c : Thread nD τ).loc main_v1)) (c : Dev nD) (r : Ref sig .tc) (h : r ∉ ([main_v1] : List (Ref sig .tc))) :
    V2 m out c r = V1 m c r := by
  simp only [V2, Function.update_of_ne (StableHlo.devRef_ne_of_ne (List.ne_of_not_mem_cons h) : (Proc.devRef .tc r : DevRef τ sig) ≠ Proc.devRef .tc main_v1)]
theorem V2_v1 (out : (c : Dev nD) → Buf (Elt F) ((c : Thread nD τ).loc main_v1)) (c : Dev nD) : V2 m out c main_v1 = out c := by
  simp only [V2, Function.update_self]
theorem V3_of (out : (c : Dev nD) → Buf (Elt F) ((c : Thread nD τ).loc main_v1)) (c : Dev nD) (r : Ref sig .tc) (h : r ∉ ([main_v2] : List (Ref sig .tc))) :
    V3 m out c r = V2 m out c r :=
  StableHlo.after_of_writes_sub hostOps1 _ hostOps1_writes h

/-- No step writes an argument: each reaches the end as launched. -/
theorem V3_arg (out : (c : Dev nD) → Buf (Elt F) ((c : Thread nD τ).loc main_v1)) (c : Dev nD) (r : Ref sig .tc)
    (h2 : r ∉ ([main_v2] : List (Ref sig .tc))) (h1 : r ∉ ([main_v1] : List (Ref sig .tc))) (h0 : r ∉ ([main_v0] : List (Ref sig .tc))) :
    V3 m out c r = m ((c : Thread nD τ).loc r) :=
  (V3_of m out c r h2).trans <| (V2_of m out c r h1).trans <| (V1_of m c r h0).trans rfl

/-! ## The windows' blocks and the proof data's fixed part -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The proof data of the one pipeline on core `c`, but for what the output window's buffer holds after each point
    (`o`) and the invariant between points (`Φ`): the arrays as the region finds them, every input's buffer left at its
    block, the projection weights' two windows at half a share each, nothing owed. -/
def mkDat (c : Dev nD) (o : Fin cfg0.N → (cfg0.win 4).block.Idx → Elt F (cfg0.win 4).elt) (Φ : Fin (cfg0.N + 1) → sProp 𝕄) :
    Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => o t
  Φ := Φ
  q := qsh
  owed _ := 0

/-! ## @main as segments -/

/-- No core owes another anything: no level is assigned. -/
abbrev L0 : GSem nD τ sig → Finset Unit := fun _ => ∅
abbrev lv0 : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev Rst (c : Dev nD) : sProp 𝕄 := iprop(∃ W, owes (c : Thread nD τ) (0 : CellTallies nD τ sig Unit) W)

/-- The first reshape, over the unscoped buffers from the launch contents. -/
def seg0 : HostSeg (Ix := Unit) (Name := ℕ) (U := UR sig nD τ) (Lvl := ℕ) (pcfgs (F := F)) defs₀ Variants.none L0 lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rst
/-- The last reshape, over the unscoped buffers as the region leaves them. -/
def seg2 (out : (c : Dev nD) → Buf (Elt F) ((c : Thread nD τ).loc main_v1)) :
    HostSeg (Ix := Unit) (Name := ℕ) (U := UR sig nD τ) (Lvl := ℕ) (pcfgs (F := F)) defs₀ Variants.none L0 lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m out) Rst

end Cert.Kernel.Hand

end
-- ==== Proof.K.Acc.lean ====
/-
  What the scratch accumulator holds after each grid point, and the invariant between points.

  Point `n = 16 * e + k` is tile `k` of expert `e`. At tile 0 the body stores zeros and adds the tile's product onto
  them; at every later tile it adds the tile's product onto what the point before left; at tile 15 it also copies the
  accumulator into the output window's buffer.
-/
import proofs.«106736_j9483287789704_2_alg».proof.Proof.K.Launch
import proofs.«106736_j9483287789704_2_alg».proof.Proof.Gen.Kernel.Skeleton

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

variable (m : (ℓ : Loc nD τ sig) → Buf (Elt F) ℓ)

/-- One tile's step at point `t`: the body's product of the point's four input blocks added onto `a`. -/
def tileStep (c : Dev nD) (t : Fin cfg0.N) (a : Vec F S1024x2048 .f32) : Vec F S1024x2048 .f32 :=
  k0_pay2 (iblk m c 0 t) (iblk m c 1 t) (iblk m c 2 t) (iblk m c 3 t) a

/-- The accumulator after point `n`: restarted from zeros at the first tile of an expert, carried otherwise. -/
def accAt (c : Dev nD) : (n : ℕ) → n < cfg0.N → Vec F S1024x2048 .f32
  | 0, hn => tileStep m c ⟨0, hn⟩ (k0_pay1 (F := F))
  | n + 1, hn =>
    if (n + 1) % 16 = 0 then tileStep m c ⟨n + 1, hn⟩ (k0_pay1 (F := F))
    else tileStep m c ⟨n + 1, hn⟩ (accAt c n (Nat.lt_of_succ_lt hn))

theorem accAt_first (c : Dev nD) (t : Fin cfg0.N) (h0 : t.val % 16 = 0) :
    accAt m c t.val t.isLt = tileStep m c t (k0_pay1 (F := F)) := by
  obtain ⟨n, hn⟩ := t
  cases n with
  | zero => rfl
  | succ n => exact if_pos h0

theorem accAt_next (c : Dev nD) (t : Fin cfg0.N) (h0 : ¬t.val % 16 = 0) :
    accAt m c t.val t.isLt = tileStep m c t (accAt m c (t.val - 1) (Nat.lt_of_le_of_lt (Nat.sub_le _ _) t.isLt)) := by
  obtain ⟨n, hn⟩ := t
  cases n with
  | zero => exact absurd (Nat.zero_mod _) h0
  | succ n => exact if_neg h0

/-- What the output window's buffer holds after a point that stores it (the last tile of an expert): the accumulator,
    with a leading unit axis. At the other points the window is idle and this is not consulted. -/
def outBuf (c : Dev nD) (t : Fin cfg0.N) : (cfg0.win 4).block.Idx → Elt F (cfg0.win 4).elt :=
  k0_pay3 (accAt m c t.val t.isLt)

/-- The scratch operand, a whole scoped buffer of the kernel's own. -/
abbrev scratch : Memref sig .tc .vmem S1024x2048 .f32 := Memref.whole cc0_scratch0

/-- The invariant before point `n`: before the first point the scratch holds anything; afterwards what the point
    before left in it. -/
def PhiS (c : Dev nD) : (n : ℕ) → n ≤ cfg0.N → sProp 𝕄
  | 0, _ => iprop(∃ d, owns (c : Thread nD τ) scratch fullShare d)
  | n + 1, hn => owns (c : Thread nD τ) scratch fullShare (accAt m c n hn)

theorem PhiS_zero (c : Dev nD) (n : ℕ) (h : n ≤ cfg0.N) (hz : n = 0) :
    PhiS m c n h = iprop(∃ d, owns (c : Thread nD τ) scratch fullShare d) := by subst hz; rfl
theorem PhiS_succ (c : Dev nD) (n : ℕ) (hn : n < cfg0.N) :
    PhiS m c (n + 1) hn = owns (c : Thread nD τ) scratch fullShare (accAt m c n hn) := rfl
theorem PhiS_pos (c : Dev nD) (n : ℕ) (h : n ≤ cfg0.N) (hz : n ≠ 0) :
    PhiS m c n h = owns (c : Thread nD τ) scratch fullShare (accAt m c (n - 1) (by omega)) := by
  cases n with
  | zero => exact absurd rfl hz
  | succ n => rfl

/-- The invariant as the proof data takes it. -/
abbrev PhiF (c : Dev nD) (t : Fin (cfg0.N + 1)) : sProp 𝕄 := PhiS m c t.val (Nat.le_of_lt_succ t.isLt)

/-- The scoped buffers no window stages are the scratch, at anything. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scratch fullShare d) := by
  rw [scopedRest0_eq]; simp only [scratch, owns_whole]; rfl

end Cert.Kernel.Hand

end
-- ==== Proof.K.Frame.lean ====
/- The body obligation of the pipeline's proof data: at every grid point the body, run on the
   staging buffers at the point's input blocks and on the accumulator at what the point before left, leaves
   the accumulator at this point's running sum and, at the last tile of a row, the output window at it. -/
import proofs.«106736_j9483287789704_2_alg».proof.Proof.K.Pieces
import proofs.«106736_j9483287789704_2_alg».proof.Proof.K.Acc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data -/

/-- The proof data of the pipeline on core `c`: the output window's buffer after a point at the reshaped running
    sum, the invariant between points the accumulator at the running sum. -/
abbrev datF (c : Dev nD) : Dat τ (Elt F) Unit ℕ (UR sig nD τ) ℕ cfg0 c := mkDat m c (outBuf m c) (PhiF m c)

/-- Its arrays are the contents the region finds. -/
theorem A_eq (c : Dev nD) (w : Fin cfg0.W) : (datF m c).A w = V1 m c (Pipeline.arrRef spec0 w) := by
  dsimp only [datF, mkDat]

/-- What the body leaves, window by window. -/
theorem after0_0 (c : Dev nD) (t : Fin cfg0.N) : (datF m c).after 0 t = iblk m c 0 t := by dsimp only [datF, mkDat]
theorem after0_1 (c : Dev nD) (t : Fin cfg0.N) : (datF m c).after 1 t = iblk m c 1 t := by dsimp only [datF, mkDat]
theorem after0_2 (c : Dev nD) (t : Fin cfg0.N) : (datF m c).after 2 t = iblk m c 2 t := by dsimp only [datF, mkDat]
theorem after0_3 (c : Dev nD) (t : Fin cfg0.N) : (datF m c).after 3 t = iblk m c 3 t := by dsimp only [datF, mkDat]
theorem after0_4 (c : Dev nD) (t : Fin cfg0.N) : (datF m c).after 4 t = outBuf m c t := by dsimp only [datF, mkDat]

/-- The invariant at a point's start, restated at the point's position. -/
theorem PhiS_castSucc (c : Dev nD) (t : Fin cfg0.N) :
    (datF m c).Φ t.castSucc = PhiS m c t.val (Nat.le_of_lt t.isLt) := by
  rfl

/-! ## The inputs' buffers hold their blocks

An input window's current buffer holds the window's block at every point, fetched there or not: where it is not
fetched the block index has not moved, and the body leaves the block in place. -/

theorem before0_0 (c : Dev nD) (t : Fin cfg0.N) (d) : (datF m c).before 0 t d = iblk m c 0 t :=
  ((datF m c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (datF m c).before 1 t d = iblk m c 1 t :=
  ((datF m c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (datF m c).before 2 t d = iblk m c 2 t :=
  ((datF m c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (datF m c).before 3 t d = iblk m c 3 t :=
  ((datF m c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## What each case leaves in the accumulator and in the output window, at a point -/

/-- First tile of a row: whatever the accumulator held, the pieces written leave the running sum restarted. -/
theorem scratchA (c : Dev nD) (t : Fin cfg0.N) (h0 : t.val % 16 = 0) (h1 : ¬t.val % 16 = 15) (es0) :
    scM0_0.view.read (Elt F) (scM0_0.view.writes (Elt F) es0 (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.1) = accAt m c t.val t.isLt :=
  (View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))).trans
    ((sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).trans (accAt_first m c t h0).symm)

/-- Middle tile: the pieces written leave the running sum advanced by the tile. -/
theorem scratchB (c : Dev nD) (t : Fin cfg0.N) (h0 : ¬t.val % 16 = 0) (h1 : ¬t.val % 16 = 15) (es0) :
    scM0_0.view.read (Elt F) (scM0_0.view.writes (Elt F) es0 (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt m c (t.val - 1) (Nat.lt_of_le_of_lt (Nat.sub_le _ _) t.isLt))).2.1) = accAt m c t.val t.isLt :=
  (View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt m c (t.val - 1) (Nat.lt_of_le_of_lt (Nat.sub_le _ _) t.isLt)))).trans
    ((sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt m c (t.val - 1) (Nat.lt_of_le_of_lt (Nat.sub_le _ _) t.isLt))).trans (accAt_next m c t h0).symm)

/-- Last tile: the same for the accumulator, -/
theorem scratchC (c : Dev nD) (t : Fin cfg0.N) (h0 : ¬t.val % 16 = 0) (h1 : t.val % 16 = 15) (es0) :
    scM0_0.view.read (Elt F) (scM0_0.view.writes (Elt F) es0 (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt))).2.1) = accAt m c t.val t.isLt :=
  (View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt)))).trans
    ((sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt))).trans (accAt_next m c t h0).symm)

/-- and the output window's buffer is left at the finished sum, reshaped to the window's block. -/
theorem outC (c : Dev nD) (t : Fin cfg0.N) (h0 : ¬t.val % 16 = 0) (h1 : t.val % 16 = 15) (e4) :
    (ms0_4 t).view.read (Elt F) ((ms0_4 t).view.writes (Elt F) e4 (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt))).1) = outBuf m c t :=
  (View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt)))).trans
    ((out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt))).trans
      (congrArg (k0_pay3 (F := F)) (accAt_next m c t h0).symm))

/-- Before any point the invariant holds the accumulator at some contents. -/
theorem PhiS_any (c : Dev nD) (n : ℕ) (h : n ≤ cfg0.N) :
    PhiS m c n h ⊢ (iprop(∃ d, owns (c : Thread nD τ) scM0_0 fullShare d) : sProp 𝕄) := by
  by_cases hz : n = 0
  · rw [PhiS_zero m c n h hz]
  · rw [PhiS_pos m c n h hz]
    iintro H; iexists _; iexact H

/-! ## The body obligation, at a generic point -/

/-- What the body is called with at point `t`, the windows one by one, -/
def bodyPre (c : Dev nD) (t : Fin cfg0.N) : sProp 𝕄 :=
  iprop((datF m c).Φ t.castSucc ∗ (datF m c).owesAt () t.castSucc
    ∗ (∃ d, owns (c : Thread nD τ) (ms0_0 t) fullShare ((datF m c).before 0 t d))
    ∗ (∃ d, owns (c : Thread nD τ) (ms0_1 t) fullShare ((datF m c).before 1 t d))
    ∗ (∃ d, owns (c : Thread nD τ) (ms0_2 t) fullShare ((datF m c).before 2 t d))
    ∗ (∃ d, owns (c : Thread nD τ) (ms0_3 t) fullShare ((datF m c).before 3 t d))
    ∗ (∃ d, owns (c : Thread nD τ) (ms0_4 t) fullShare ((datF m c).before 4 t d)))

/-- and what it returns. -/
def bodyPost (c : Dev nD) (t : Fin cfg0.N) : sProp 𝕄 :=
  iprop((datF m c).Φ t.succ ∗ (datF m c).owesAt () t.succ
    ∗ (datF m c).leavesExact 0 t
    ∗ (datF m c).leavesExact 1 t
    ∗ (datF m c).leavesExact 2 t
    ∗ (datF m c).leavesExact 3 t
    ∗ (datF m c).leavesExact 4 t)

set_option maxHeartbeats 4800000 in
/-- The body at any point. The inputs' buffers hold their blocks; the point's position modulo 16 says which of the
    three cases it is in; the invariant hands the body the accumulator at what the point before left (at anything at a
    first tile) and takes it back at this point's running sum; the output window is handed back as found except at
    a last tile, where it is left at the reshaped sum; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (datF m c).owesAt () t.succ = (datF m c).owesAt () t.castSucc from rfl]
  rw [show (datF m c).Φ t.succ = PhiS m c (t.val + 1) t.isLt from rfl, PhiS_succ]
  rw [PhiS_castSucc m c t]
  have hN : t.val < 128 := lt_of_lt_of_eq t.isLt (show cfg0.N = 128 from N_0)
  rw [show (datF m c).leavesExact 0 t = owns (c : Thread nD τ) (ms0_0 t) fullShare ((datF m c).after 0 t) from by
    unfold Dat.leavesExact; rw [liveAt0_0 t], after0_0]
  rw [show (datF m c).leavesExact 1 t = owns (c : Thread nD τ) (ms0_1 t) fullShare ((datF m c).after 1 t) from by
    unfold Dat.leavesExact; rw [liveAt0_1 t], after0_1]
  rw [show (datF m c).leavesExact 2 t = owns (c : Thread nD τ) (ms0_2 t) fullShare ((datF m c).after 2 t) from by
    unfold Dat.leavesExact; rw [liveAt0_2 t], after0_2]
  rw [show (datF m c).leavesExact 3 t = owns (c : Thread nD τ) (ms0_3 t) fullShare ((datF m c).after 3 t) from by
    unfold Dat.leavesExact; rw [liveAt0_3 t], after0_3]
  by_cases h0 : t.val % 16 = 0
  · have h1 : ¬t.val % 16 = 15 := by omega
    rw [Dat.leavesExact_idle (datF m c) 4 t (idleAt0_4_A t ((hcond0_0 t).mpr h0) (fun h => h1 ((hcond0_1 t).mp h))) (noFlush0_4_A t ((hcond0_0 t).mpr h0) (fun h => h1 ((hcond0_1 t).mp h)))]
    iintro ⟨HS, Ho, ⟨%d0, H0⟩, ⟨%d1, H1⟩, ⟨%d2, H2⟩, ⟨%d3, H3⟩, ⟨%d4, H4⟩⟩
    ihave HS0 := (PhiS_any m c t.val (Nat.le_of_lt t.isLt)) $$ HS
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 ((datF m c).before 4 t d4) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0]
    · unfold owns; iexists _; isplitr
      swap; · iexact HS0
      ipureintro; exact scratchA m c t h0 h1 es0
    isplitl [Ho]; · iexact Ho
    isplitl [H0]; · iexact H0
    isplitl [H1]; · iexact H1
    isplitl [H2]; · iexact H2
    isplitl [H3]; · iexact H3
    iexists _; iexact H4
  · by_cases h1 : t.val % 16 = 15
    · rw [show (datF m c).leavesExact 4 t = owns (c : Thread nD τ) (ms0_4 t) fullShare ((datF m c).after 4 t) from by
        unfold Dat.leavesExact; rw [liveAt0_4_C t (fun h => h0 ((hcond0_0 t).mp h)) ((hcond0_1 t).mpr h1)], after0_4]
      have hz : t.val ≠ 0 := by omega
      rw [PhiS_pos m c _ _ hz]
      iintro ⟨HS0, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact scratchC m c t h0 h1 es0
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact outC m c t h0 h1 e4
    · rw [Dat.leavesExact_idle (datF m c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      have hz : t.val ≠ 0 := by omega
      rw [PhiS_pos m c _ _ hz]
      iintro ⟨HS0, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt m c (t.val - 1) (Nat.lt_of_le_of_lt (Nat.sub_le _ _) t.isLt))).2.2 ((datF m c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact scratchB m c t h0 h1 es0
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (datF (F := F) m c) (defs₀ (F := F)) Variants.none () Set.univ := fun t => by
  rw [bigSep_W0, bigSep_W0]
  exact sound_body m c t

/-! ## The invariant at the region's ends -/

/-- What the launch hands the region — the accumulator at anything — is the invariant before the first point. -/
theorem hinF (c : Dev nD) :
    (Pipeline.scopedRest (Ix := Unit) (Name := ℕ) (U := UR sig nD τ) (Lvl := ℕ) (Val := Elt F) spec0 c : sProp 𝕄) ⊢ PhiF m c 0 := by
  rw [scopedRest_scratch, show PhiF m c 0 = PhiS m c 0 (Nat.zero_le _) from rfl, PhiS_zero m c 0 _ rfl]

/-- After the last point the invariant gives it back: the accumulator's named contents are forgotten. -/
theorem houtF (c : Dev nD) :
    PhiF m c (Fin.last cfg0.N) ⊢ (Pipeline.scopedRest (Ix := Unit) (Name := ℕ) (U := UR sig nD τ) (Lvl := ℕ) (Val := Elt F) spec0 c : sProp 𝕄) := by
  rw [scopedRest_scratch]
  exact PhiS_any m c _ _

end Cert.Kernel.Hand

end
-- ==== Proof.K.Region.lean ====
/-
  The kernel region as a segment of @main, and @main's run around any proof data built by `mkDat`.

  At the region's entry the projection weights' full share is split in two halves, one for the window on the gate
  columns and one for the window on the up columns; neither window writes, so at the exit both halves still hold the
  entry contents and are joined again. The result array leaves the region at what the pipeline's write-backs made of
  it, and the last reshape reads it.
-/
import proofs.«106736_j9483287789704_2_alg».proof.Proof.K.Launch

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)
/-- The scoped buffers no window stages, at anything: what the invariant's two ends are made of. -/
abbrev scR (c : Dev nD) : sProp 𝕄 :=
  Pipeline.scopedRest (Ix := Unit) (Name := ℕ) (U := UR sig nD τ) (Lvl := ℕ) (Val := Elt F) spec0 c

/-- The proof data on every core. -/
abbrev dats (o : (c : Dev nD) → Fin cfg0.N → (cfg0.win 4).block.Idx → Elt F (cfg0.win 4).elt)
    (Φ : (c : Dev nD) → Fin (cfg0.N + 1) → sProp 𝕄) (_ : Fin 1) (c : Dev nD) : Dat τ (Elt F) Unit ℕ (UR sig nD τ) ℕ cfg0 c :=
  mkDat m c (o c) (Φ c)

/-- What the region leaves in its result array: the write-backs of all points applied. -/
abbrev outOf (o : (c : Dev nD) → Fin cfg0.N → (cfg0.win 4).block.Idx → Elt F (cfg0.win 4).elt)
    (Φ : (c : Dev nD) → Fin (cfg0.N + 1) → sProp 𝕄) (c : Dev nD) : Buf (Elt F) ((c : Thread nD τ).loc main_v1) :=
  (dats m o Φ 0 c).arrAt 4 cfg0.N

/-- The arrays one by one at named contents. -/
theorem arrays_named {c : Dev nD} (dat : Dat τ (Elt F) Unit ℕ (UR sig nD τ) ℕ cfg0 c) (hq : dat.q = qsh)
    (A : (w : Fin cfg0.W) → Buf (Elt F) ((cfg0.win w).arr.view.loc (c.tc : Thread nD τ)))
    (a0 : Buf (Elt F) ((c.tc : Thread nD τ).loc (Pipeline.arrRef spec0 0))) (a1 : Buf (Elt F) ((c.tc : Thread nD τ).loc (Pipeline.arrRef spec0 1)))
    (a2 : Buf (Elt F) ((c.tc : Thread nD τ).loc (Pipeline.arrRef spec0 2))) (a3 : Buf (Elt F) ((c.tc : Thread nD τ).loc (Pipeline.arrRef spec0 3)))
    (a4 : Buf (Elt F) ((c.tc : Thread nD τ).loc (Pipeline.arrRef spec0 4)))
    (h0 : A 0 = a0) (h1 : A 1 = a1) (h2 : A 2 = a2) (h3 : A 3 = a3) (h4 : A 4 = a4) :
    (dat.arrays A : sProp 𝕄)
      = iprop((((c.tc : Thread nD τ).loc (Pipeline.arrRef spec0 0)) ↦{fullShare} a0) ∗ (((c.tc : Thread nD τ).loc (Pipeline.arrRef spec0 1)) ↦{fullShare.left} a1)
          ∗ (((c.tc : Thread nD τ).loc (Pipeline.arrRef spec0 2)) ↦{fullShare.right} a2) ∗ (((c.tc : Thread nD τ).loc (Pipeline.arrRef spec0 3)) ↦{fullShare} a3)
          ∗ (((c.tc : Thread nD τ).loc (Pipeline.arrRef spec0 4)) ↦{fullShare} a4)) := by
  rw [arrays_list dat hq A, h0, h1, h2, h3, h4]

/-- An input window's array is never written: at every point it is the entry contents. -/
theorem arrAt_input (o : (c : Dev nD) → Fin cfg0.N → (cfg0.win 4).block.Idx → Elt F (cfg0.win 4).elt)
    (Φ : (c : Dev nD) → Fin (cfg0.N + 1) → sProp 𝕄) (c : Dev nD) (w : Fin cfg0.W) (hw : (cfg0.win w).isOut = false) (n : ℕ) :
    (dats m o Φ 0 c).arrAt w n = V1 m c (Pipeline.arrRef spec0 w) :=
  (dats m o Φ 0 c).arrAt_in w hw n

-- a library lemma stated over `cfgs p` at the pinned configuration unifies only when unification may unfold plain
-- definitions in a metavariable's type
set_option backward.isDefEq.respectTransparency.types false in
/-- THE REGION, for any contents of the output window's buffer and any invariant whose two ends are the scoped rest
    (the scratch at anything): entered from the unscoped buffers as the first reshape left them, left with the result
    array at `outOf` and every other buffer as it was. -/
def reg0 (o : (c : Dev nD) → Fin cfg0.N → (cfg0.win 4).block.Idx → Elt F (cfg0.win 4).elt)
    (Φ : (c : Dev nD) → Fin (cfg0.N + 1) → sProp 𝕄)
    (hbody : ∀ c, Pipeline.BodyObligationLoose (dats m o Φ 0 c) (defs₀ (F := F)) Variants.none () Set.univ)
    (hin : ∀ c, scR (F := F) c ⊢ Φ c 0)
    (hout : ∀ c, Φ c (Fin.last cfg0.N) ⊢ scR (F := F) c) :
    RegionSeg (pcfgs (F := F)) adm (dats m o Φ) () defs₀ Variants.none L0 lv0 0 where
  win := winFacts₀0
  block_pos := block_pos0
  stage_whole := stage_whole0
  K := PEmpty
  osem := fun k => k.elim
  ho := Pipeline.OwnSemFacts.none _
  hbody := hbody
  hwaits := Pipeline.hwaits_of_owed_zero _ _ _ _ L0 lv0 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outOf m o Φ) c) ∗ Rst c)
  X c := iprop(emp)
  Y c := iprop(emp)
  Z c := iprop((((c : Thread nD τ).loc main_arg0) ↦{fullShare} V1 m c main_arg0) ∗ (((c : Thread nD τ).loc main_v2) ↦{fullShare} V1 m c main_v2))
  hentry c := by
    rw [held_list, Pipeline.ownSems0_none,
      arrays_named (dats m o Φ 0 c) rfl _ (V1 m c main_v0) (V1 m c main_arg1) (V1 m c main_arg1) (V1 m c main_arg2) (V1 m c main_v1) rfl rfl rfl rfl rfl]
    iintro ⟨⟨⟨H0, H1, H2, Hv0, Hv1, Hv2⟩, HO⟩, -, -⟩
    ihave H1' := (pointsTo_share (PosShare.mem_left_op_right fullShare)).1 $$ H1
    icases H1' with ⟨H1l, H1r⟩
    imodintro
    isplitl [Hv0 H1l H1r H2 Hv1]
    · isplitl [Hv0]; · iexact Hv0
      isplitl [H1l]; · iexact H1l
      isplitl [H1r]; · iexact H1r
      isplitl [H2]; · iexact H2
      iexact Hv1
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H0]; · iexact H0
    iexact Hv2
  hin c := by
    rw [show (dats m o Φ 0 c).Φ 0 = Φ c 0 from rfl]
    iintro ⟨-, -, Hr⟩
    iapply (hin c); iexact Hr
  hout c := by
    rw [Pipeline.ownSems0_none, show (dats m o Φ 0 c).Φ (Fin.last (Pipeline.pin (pcfgs (F := F)) adm 0).N) = Φ c (Fin.last cfg0.N) from rfl]
    iintro H
    isplitr; · iempintro
    isplitr; · iempintro
    iapply (hout c); iexact H
  hexit c := by
    rw [held_list, V2_of m _ c main_arg0 (by decide), V2_of m _ c main_arg1 (by decide), V2_of m _ c main_arg2 (by decide),
      V2_of m _ c main_v0 (by decide), V2_v1, V2_of m _ c main_v2 (by decide),
      arrays_named (dats m o Φ 0 c) rfl _ (V1 m c main_v0) (V1 m c main_arg1) (V1 m c main_arg1) (V1 m c main_arg2) (outOf m o Φ c)
        (arrAt_input m o Φ c 0 rfl _) (arrAt_input m o Φ c 1 rfl _) (arrAt_input m o Φ c 2 rfl _) (arrAt_input m o Φ c 3 rfl _) rfl]
    iintro ⟨⟨Hv0, H1l, H1r, H2, Hv1⟩, HO, -, ⟨H0, Hv2⟩⟩
    ihave H1 := (pointsTo_share (PosShare.mem_left_op_right fullShare)).2 $$ [H1l H1r]
    · isplitl [H1l] <;> iassumption
    imodintro
    isplitr [HO]
    · isplitl [H0]; · iexact H0
      isplitl [H1]; · iexact H1
      isplitl [H2]; · iexact H2
      isplitl [Hv0]; · iexact Hv0
      isplitl [Hv1]; · iexact Hv1
      iexact Hv2
    · unfold Pipeline.Dat.owesAt Pipeline.owesWithin
      icases HO with ⟨%W, -, HO⟩; iexists W; iexact HO

end Cert.Kernel.Hand

end
-- ==== Proof.K.Run.lean ====
/-
  @main's run: the first reshape, the kernel region, the last reshape, composed.

  Every weakly fair execution terminates without a fault; at the end the result buffer holds the last reshape of what
  the region left in its result array, and the three argument arrays hold what they held at launch.
-/
import proofs.«106736_j9483287789704_2_alg».proof.Proof.K.Region

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the staging cells' and the pipeline's transfers'. -/
def u₀ : UR sig nD τ := initOf (Pipeline.cells cfgs cellOf_inj) (Pipeline.launchToks cfgs cellOf_inj)

-- the kit's implicit arguments are found by unifying its conclusion with this one, which takes unfolding plain
-- definitions in a metavariable's type
set_option backward.isDefEq.respectTransparency.types false in
/-- THE RUN, around any proof data built by `mkDat` whose body obligation holds and whose invariant starts from and ends
    in the scratch at anything. -/
theorem run_of (o : (c : Dev nD) → Fin cfg0.N → (cfg0.win 4).block.Idx → Elt F (cfg0.win 4).elt)
    (Φ : (c : Dev nD) → Fin (cfg0.N + 1) → sProp 𝕄)
    (hbody : ∀ c, Pipeline.BodyObligationLoose (dats m o Φ 0 c) (defs₀ (F := F)) Variants.none () Set.univ)
    (hin : ∀ c, scR (F := F) c ⊢ Φ c 0) (hout : ∀ c, Φ c (Fin.last cfg0.N) ⊢ scR (F := F) c) :
    θ_run defs (onTc (τ := τ) (main (F := F))) ⟨m, fun _ => 0, ρ⟩ (fun r => ∀ c : Dev nD,
      r.2.mem ((c.tc : Thread nD τ).loc main_v2) = V3 m (outOf m o Φ) c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m o Φ) () cellOf_inj emb₁ defs₀ Variants.none L0 lv0 m ρ main
    [.host (seg0 m), .region (reg0 m o Φ hbody hin hout), .host (seg2 m (outOf m o Φ))]
    (fun c Q => by rw [main_segs adm (dats m o Φ) () Variants.none L0 lv0 (seg0 m) (seg2 m (outOf m o Φ)) (reg0 m o Φ hbody hin hout) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V3 m (outOf m o Φ) c))
    (hch := ⟨fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v2) = V3 m (outOf m o Φ) c main_v2
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all (Pipeline.ucRefs τ sig) (fun b => ((c : Thread nD τ).1, b)) (V3 m (outOf m o Φ) c) s') $$ [Hh HSI]
      · isplitl [Hh] <;> iassumption
      icases Hr with ⟨%h, HSI⟩
      imodintro
      isplitr
      · ipureintro
        refine ⟨h (Proc.devRef .tc main_v2) (Finset.mem_filter.mpr ⟨StableHlo.devRef_mem_tcRefs main_v2, by decide⟩), ?_, ?_, ?_⟩
        · exact (h (Proc.devRef .tc main_arg0) (Finset.mem_filter.mpr ⟨StableHlo.devRef_mem_tcRefs main_arg0, by decide⟩)).trans (V3_arg m _ c main_arg0 (by decide) (by decide) (by decide))
        · exact (h (Proc.devRef .tc main_arg1) (Finset.mem_filter.mpr ⟨StableHlo.devRef_mem_tcRefs main_arg1, by decide⟩)).trans (V3_arg m _ c main_arg1 (by decide) (by decide) (by decide))
        · exact (h (Proc.devRef .tc main_arg2) (Finset.mem_filter.mpr ⟨StableHlo.devRef_mem_tcRefs main_arg2, by decide⟩)).trans (V3_arg m _ c main_arg2 (by decide) (by decide) (by decide))
      · iexact HSI)
    (hQ := fun _ h => h)

/-- info: 'Cert.Kernel.Hand.run_of' depends on axioms: [propext, Classical.choice, Quot.sound] -/
#guard_msgs in #print axioms run_of

end Cert.Kernel.Hand

end
-- ==== Proof.K.Main.lean ====
/-
  The kernel program's run and its frame, at any float instance.

  The proof data names, after each grid point, the scratch accumulator and, at an expert's last tile, the output
  window's buffer; with the body's three cases run against it, @main terminates without a fault, its result buffer
  ends at the last reshape of the region's result array, and its three argument arrays end as launched.
-/
import proofs.«106736_j9483287789704_2_alg».proof.Proof.K.Frame
import proofs.«106736_j9483287789704_2_alg».proof.Proof.K.Run

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The run, with the result buffer named. -/
theorem run_main :
    θ_run defs (onTc (τ := τ) (main (F := F))) ⟨m, fun _ => 0, ρ⟩ (fun r => ∀ c : Dev nD,
      r.2.mem ((c.tc : Thread nD τ).loc main_v2) = V3 m (outOf m (outBuf m) (PhiF m)) c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ (outBuf m) (PhiF m) (fun c => (body_obligation m c).loose) (hinF m) (houtF m)

/-- The frame: every weakly fair execution terminates, nothing faults, the argument arrays end unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KI.Conds.lean ====
/- The branch conditions of the fused kernel's body in closed form over the grid, where its five
   windows are idle, and the staging and scratch memrefs the pipeline passes to the body. -/
import proofs.«106736_j9483287789704_2_alg».proof.Proof.Gen.KernelIdeal.Launch
import proofs.«106736_j9483287789704_2_alg».proof.Proof.Gen.KernelIdeal.Skeleton
import proofs.«106736_j9483287789704_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body -/

/-- The first conditional: the second grid coordinate is 0 (the scalar chain of the body, substituted). -/
abbrev cond0_0 (i : grid0.Coords) : Prop :=
  (Scalar.cmpi .ne (Scalar.extui (Scalar.cmpi .eq (BitVec.ofNat 32 (i 1).val) 0#32)) 0#32) = 1#1

/-- It holds exactly at the linear points that are multiples of 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional: the second grid coordinate is 15. -/
abbrev cond0_1 (i : grid0.Coords) : Prop := k0_cond2 i = 1#1

/-- It holds exactly at the linear points congruent to 15 modulo 16. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- First tile of a row (second coordinate 0): nothing is stored into the output window, which is idle. -/
theorem idleAt0_4_A : ∀ t : Fin cfg0.N, cond0_0 (grid0.coords t) → ¬cond0_1 (grid0.coords t) → cfg0.idle 4 (grid0.coords t) = true := by decide +kernel
/-- And its block is not written back there. -/
theorem noFlush0_4_A : ∀ t : Fin cfg0.N, cond0_0 (grid0.coords t) → ¬cond0_1 (grid0.coords t) → (cfg0.win 4).flush t = false := by decide +kernel
/-- Middle tiles: the output window is idle. -/
theorem idleAt0_4_B : ∀ t : Fin cfg0.N, ¬cond0_0 (grid0.coords t) → ¬cond0_1 (grid0.coords t) → cfg0.idle 4 (grid0.coords t) = true := by decide +kernel
/-- And its block is not written back there. -/
theorem noFlush0_4_B : ∀ t : Fin cfg0.N, ¬cond0_0 (grid0.coords t) → ¬cond0_1 (grid0.coords t) → (cfg0.win 4).flush t = false := by decide +kernel
/-- Last tile of a row (second coordinate 15): the output window is stored, hence live. -/
theorem liveAt0_4_C : ∀ t : Fin cfg0.N, ¬cond0_0 (grid0.coords t) → cond0_1 (grid0.coords t) → cfg0.idle 4 (grid0.coords t) = false := by decide +kernel

/-! ## The memrefs the body is called with -/

/-- Each window's current staging memref at the point `t`, and that it is a whole buffer. -/
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x2048 .f32 := win0_4.stage (cfg0.slots t 4)
abbrev hs0_4 (t : Fin cfg0.N) : (ms0_4 t).IsWhole := hstage0_4 ((cfg0.slots t 4).cast nbuf0_4)

/-- The accumulator: a whole scoped buffer of the kernel's own, passed beside the windows. -/
abbrev scM0_0 : Memref sig .tc .vmem S1024x2048 .f32 := Memref.whole cc0_scratch0
/-- The accumulator as a view: what it holds between points is stated through it. -/
abbrev VS0_0 : View sig .tc .vmem S1024x2048 .f32 := scM0_0.view
/-- One staging buffer of the output window, through which its contents are stated. -/
abbrev VO0_4 : View sig .tc .vmem S1x1024x2048 .f32 := (Memref.whole cc0_stg4_0 : Memref sig .tc .vmem S1x1024x2048 .f32).view

end Cert.KernelIdeal.Hand

end
-- ==== Proof.KI.RunA.lean ====
/- The body at the first tile of a row: the accumulator is reset to zero, then the tile's
   contribution is added to it; nothing is stored into the output window. -/
import proofs.«106736_j9483287789704_2_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST TILE (second grid coordinate 0). On whole memrefs — the four inputs at their contents, the output
    window at contents `xi4` that are handed back untouched, the accumulator at anything — the body runs to a
    continuation that holds the inputs as they were, the output window as it was, and the accumulator with the
    pieces `LS0` written over what it held. The pieces are the witness the symbolic run finds. -/
noncomputable def kernelRun0_A (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x256 .f32) (x2 : Vec F S1x2048x256 .f32) (x3 : Vec F S1x256x2048 .f32) :
    Σ' (L4 : List (View.Piece (Elt F) S1x1024x2048 .f32)), { LS0 : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨[], ?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunB.lean ====
/- The body at a middle tile of a row: the tile's contribution is added to the accumulator;
   nothing is stored into the output window. -/
import proofs.«106736_j9483287789704_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- MIDDLE TILE (second grid coordinate neither 0 nor 15). On whole memrefs — the four inputs at their
    contents, the output window at contents `xi4` handed back untouched, the accumulator at the contents `xs0`
    the tile before left — the body runs to a continuation that holds the inputs and the output window as
    they were and the accumulator with the pieces `LS0` written. The pieces are the witness the symbolic run finds. -/
noncomputable def kernelRun0_B (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x256 .f32) (x2 : Vec F S1x2048x256 .f32) (x3 : Vec F S1x256x2048 .f32) (xs0 : Vec F S1024x2048 .f32) :
    Σ' (L4 : List (View.Piece (Elt F) S1x1024x2048 .f32)), { LS0 : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨[], ?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunC.lean ====
/- The body at the last tile of a row: the tile's contribution is added to the accumulator,
   and the accumulator is then copied into the output window. -/
import proofs.«106736_j9483287789704_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- LAST TILE (second grid coordinate 15). On whole memrefs — the four inputs at their contents, the output
    window at anything (the body reads it before overwriting it whole), the accumulator at the contents `xs0`
    the tile before left — the body runs to a continuation that holds the inputs as they were, the output
    window with the pieces `L4` written and the accumulator with the pieces `LS0` written. The pieces are the
    witness the symbolic run finds. -/
noncomputable def kernelRun0_C (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) :
    Σ' (L4 : List (View.Piece (Elt F) S1x1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Pieces.lean ====
/- What the three cases of the body leave in the accumulator and in the output window: the pieces
   found by the runs cover their buffers, and read back they are the body's named payloads. -/
import proofs.«106736_j9483287789704_2_alg».proof.Proof.KI.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-shape access, of rank 2 and of rank 3, are the constant zero function. -/
theorem hz2 : (![0, 0] : Fin 2 → ℕ) = fun _ => 0 := by funext a; fin_cases a <;> rfl
theorem hz3 : (![0, 0, 0] : Fin 3 → ℕ) = fun _ => 0 := by funext a; fin_cases a <;> rfl

/-! ## First tile -/

/-- The pieces the first tile writes into the accumulator (two whole-shape stores) cover it. -/
theorem scover0_A_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x256 .f32) (x2 : Vec F S1x2048x256 .f32) (x3 : Vec F S1x256x2048 .f32) (y : S1024x2048.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x2048.size (by sl_kernel_rfl) y

/-- What the first tile leaves in the accumulator: its pieces read back over junk. -/
def sout0_A_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x256 .f32) (x2 : Vec F S1x2048x256 .f32) (x3 : Vec F S1x256x2048 .f32) : Vec F S1024x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- It is the tile's contribution added to the zeros just stored. -/
theorem sout0_A_0_eq (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : cond0_0 i) (hc1 : ¬cond0_1 i)
    (x0 : Vec F S1x1024x2048 .f32) (x1 : Vec F S1x2048x256 .f32) (x2 : Vec F S1x2048x256 .f32) (x3 : Vec F S1x256x2048 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x2048) hz2]
  simp only [View.readAt_eq_ld, harg2.read_unread, harg3.read_unread, harg4.read_unread, harg5.read_unread, harg7.read_unread,
    View.ld_unit_zero (S := S1x1024x2048) hz3, View.ld_unit_zero (S := S1x2048x256) hz3, View.ld_unit_zero (S := S1x256x2048) hz3,
    View.ld_unit_zero (S := S1024x2048) hz2, View.readCov_unit_zero (S := S1024x2048) _ hz2]

/-! ## Middle tiles -/

/-- The piece a middle tile writes into the accumulator (one whole-shape store) covers it. -/
theorem scover0_B_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x256 .f32) (x2 : Vec F S1x2048x256 .f32) (x3 : Vec F S1x256x2048 .f32) (xs0 : Vec F S1024x2048 .f32) (y : S1024x2048.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x2048.size (by sl_kernel_rfl) y

/-- What a middle tile leaves in the accumulator: its piece read back over junk. -/
def sout0_B_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x256 .f32) (x2 : Vec F S1x2048x256 .f32) (x3 : Vec F S1x256x2048 .f32) (xs0 : Vec F S1024x2048 .f32) : Vec F S1024x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- It is the tile's contribution added to what the accumulator held. -/
theorem sout0_B_0_eq (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : ¬cond0_1 i)
    (x0 : Vec F S1x1024x2048 .f32) (x1 : Vec F S1x2048x256 .f32) (x2 : Vec F S1x2048x256 .f32) (x3 : Vec F S1x256x2048 .f32) (xs0 : Vec F S1024x2048 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_cons_unit_zero (S := S1024x2048) hz2]
  simp only [View.readAt_eq_ld, harg2.read_unread, harg3.read_unread, harg4.read_unread, harg5.read_unread, harg7.read_unread,
    View.ld_unit_zero (S := S1x1024x2048) hz3, View.ld_unit_zero (S := S1x2048x256) hz3, View.ld_unit_zero (S := S1x256x2048) hz3,
    View.ld_unit_zero (S := S1024x2048) hz2, View.readCov_unit_zero (S := S1024x2048) _ hz2]

/-! ## Last tile -/

/-- The piece the last tile writes into the accumulator covers it. -/
theorem scover0_C_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) (y : S1024x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x2048.size (by sl_kernel_rfl) y

/-- The piece the last tile writes into the output window (one whole-shape store) covers it. -/
theorem cover0_C_4 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) (y : S1x1024x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1024x2048.size (by sl_kernel_rfl) y

/-- What the last tile leaves in the accumulator: its piece read back over junk. -/
def sout0_C_0 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) : Vec F S1024x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- What the last tile leaves in the output window: its piece read back over junk. -/
def out0_C_4 (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) : Vec F S1x1024x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The accumulator ends as the tile's contribution added to what it held. -/
theorem sout0_C_0_eq (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_cons_unit_zero (S := S1024x2048) hz2]
  simp only [View.readAt_eq_ld, harg2.read_unread, harg3.read_unread, harg4.read_unread, harg5.read_unread, harg7.read_unread,
    View.ld_unit_zero (S := S1x1024x2048) hz3, View.ld_unit_zero (S := S1x2048x256) hz3, View.ld_unit_zero (S := S1x256x2048) hz3,
    View.ld_unit_zero (S := S1024x2048) hz2, View.readCov_unit_zero (S := S1024x2048) _ hz2]

/-- The output window ends as the finished accumulator, reshaped to the window's block. -/
theorem out0_C_4_eq (c : Dev nD) (i : grid0.Coords) (arg2 : Memref sig .tc .vmem S1x1024x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .f32) (harg6 : arg6.IsWhole) (arg7 : Memref sig .tc .vmem S1024x2048 .f32) (harg7 : arg7.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) :
    out0_C_4 c i arg2 harg2 arg3 harg3 arg4 harg4 arg5 harg5 arg6 harg6 arg7 harg7 hc0 hc1 x0 x1 x2 x3 xs0 = k0_pay3 (k0_pay2 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_cons_unit_zero (S := S1x1024x2048) hz3]
  simp only [View.readAt_eq_ld, harg2.read_unread, harg3.read_unread, harg4.read_unread, harg5.read_unread, harg7.read_unread,
    View.ld_unit_zero (S := S1x1024x2048) hz3, View.ld_unit_zero (S := S1x2048x256) hz3, View.ld_unit_zero (S := S1x256x2048) hz3,
    View.ld_unit_zero (S := S1024x2048) hz2, View.readCov_unit_zero (S := S1024x2048) _ hz2]

end Cert.KernelIdeal.Hand

end
-- ==== Proof.KI.Launch.lean ====
/-
  The launch of the idealized kernel's @main around ANY proof data of its one pipeline.

  @main reshapes the activations `[8192, 2048]` to `[8, 1024, 2048]`, runs the kernel region over the grid of
  8 experts by 16 tiles, and reshapes the region's result back. Two of the region's five windows read the SAME array
  (the gate half and the up half of the projection weights), so the array's full share is dealt between them at the
  region's entry, half each, and joined again at its exit; every other array is its window's outright.
-/
import proofs.«106736_j9483287789704_2_alg».proof.Proof.Gen.KernelIdeal.Launch
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The unscoped buffers' contents around the region -/

/-- Core `c`'s unscoped buffers at launch. -/
abbrev V0 (c : Dev nD) : Valuation τ sig (Elt F) := fun b => m (c, b)
/-- After the first reshape: what the region finds. -/
abbrev V1 (c : Dev nD) : Valuation τ sig (Elt F) := StableHlo.after hostOps0 (V0 m c)
/-- After the region, which changes its result array only, to `out c`. -/
abbrev V2 (out : (c : Dev nD) → Buf (Elt F) ((c : Thread nD τ).loc main_v1)) (c : Dev nD) : Valuation τ sig (Elt F) :=
  Function.update (V1 m c) main_v1 (out c)
/-- After the last reshape. -/
abbrev V3 (out : (c : Dev nD) → Buf (Elt F) ((c : Thread nD τ).loc main_v1)) (c : Dev nD) : Valuation τ sig (Elt F) :=
  StableHlo.after hostOps1 (V2 m out c)

/-- The six unscoped buffers held at a valuation, one by one. -/
theorem held_list (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1) ↦{fullShare} W main_v1) ∗ (((c : Thread nD τ).loc main_v2) ↦{fullShare} W main_v2)) := by
  rw [← Pipeline.unscopedBufs_held (Ix := Unit) (Name := ℕ) (U := UR sig nD τ) (Lvl := ℕ) c W]
  unfold unscopedBufs
  exact bigSep_eq_bigSepL_of_eq [main_arg0, main_arg1, main_arg2, main_v0, main_v1, main_v2] (by decide) (by decide) _

/-- The shares the five windows hold their arrays at: the two windows on the projection weights half each. -/
abbrev qsh : Fin 5 → PosShare TreeShare := fun | 0 => fullShare | 1 => fullShare.left | 2 => fullShare.right | 3 => fullShare | 4 => fullShare | ⟨_ + 5, h⟩ => absurd h (Nat.not_lt.2 (Nat.le_add_left _ _))

/-- Each window's share of its array: an output's is full, an input's the one named. -/
theorem share_eq {c : Dev nD} (dat : Dat τ (Elt F) Unit ℕ (UR sig nD τ) ℕ cfg0 c) (hq : dat.q = qsh) (w : Fin cfg0.W) :
    dat.share w = qsh w := by
  unfold Dat.share; rw [hq]
  match w with
  | ⟨0, _⟩ => rfl
  | ⟨1, _⟩ => rfl
  | ⟨2, _⟩ => rfl
  | ⟨3, _⟩ => rfl
  | ⟨4, _⟩ => rfl

/-- The pipeline's arrays at contents `A`, one by one, at those shares. -/
theorem arrays_list {c : Dev nD} (dat : Dat τ (Elt F) Unit ℕ (UR sig nD τ) ℕ cfg0 c) (hq : dat.q = qsh)
    (A : (w : Fin cfg0.W) → Buf (Elt F) ((cfg0.win w).arr.view.loc (c.tc : Thread nD τ))) :
    (dat.arrays A : sProp 𝕄)
      = iprop((((c.tc : Thread nD τ).loc (Pipeline.arrRef spec0 0)) ↦{fullShare} A 0) ∗ (((c.tc : Thread nD τ).loc (Pipeline.arrRef spec0 1)) ↦{fullShare.left} A 1)
          ∗ (((c.tc : Thread nD τ).loc (Pipeline.arrRef spec0 2)) ↦{fullShare.right} A 2) ∗ (((c.tc : Thread nD τ).loc (Pipeline.arrRef spec0 3)) ↦{fullShare} A 3)
          ∗ (((c.tc : Thread nD τ).loc (Pipeline.arrRef spec0 4)) ↦{fullShare} A 4)) := by
  have h : (dat.arrays A : sProp 𝕄) = bigSep Finset.univ fun w : Fin 5 => (((c.tc : Thread nD τ).loc (Pipeline.arrRef spec0 w)) ↦{qsh w} A w : sProp 𝕄) := by
    unfold Dat.arrays
    exact bigSep_congr fun w _ => by rw [(arr_whole0 w).set_eq_univ, share_eq dat hq w]
  rw [h, bigSep_W0]

/-! ## What the reshapes write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The first reshape writes its result only; -/
theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))
/-- and so does the last. -/
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.reshape_writes, Finset.singleton_subset_iff, List.mem_toFinset]; exact List.mem_map_of_mem (by decide))

theorem V1_of (c : Dev nD) (r : Ref sig .tc) (h : r ∉ ([main_v0] : List (Ref sig .tc))) : V1 m c r = V0 m c r :=
  StableHlo.after_of_writes_sub hostOps0 _ hostOps0_writes h
theorem V2_of (out : (c : Dev nD) → Buf (Elt F) ((c : Thread nD τ).loc main_v1)) (c : Dev nD) (r : Ref sig .tc) (h : r ∉ ([main_v1] : List (Ref sig .tc))) :
    V2 m out c r = V1 m c r := by
  simp only [V2, Function.update_of_ne (StableHlo.devRef_ne_of_ne (List.ne_of_not_mem_cons h) : (Proc.devRef .tc r : DevRef τ sig) ≠ Proc.devRef .tc main_v1)]
theorem V2_v1 (out : (c : Dev nD) → Buf (Elt F) ((c : Thread nD τ).loc main_v1)) (c : Dev nD) : V2 m out c main_v1 = out c := by
  simp only [V2, Function.update_self]
theorem V3_of (out : (c : Dev nD) → Buf (Elt F) ((c : Thread nD τ).loc main_v1)) (c : Dev nD) (r : Ref sig .tc) (h : r ∉ ([main_v2] : List (Ref sig .tc))) :
    V3 m out c r = V2 m out c r :=
  StableHlo.after_of_writes_sub hostOps1 _ hostOps1_writes h

/-- No step writes an argument: each reaches the end as launched. -/
theorem V3_arg (out : (c : Dev nD) → Buf (Elt F) ((c : Thread nD τ).loc main_v1)) (c : Dev nD) (r : Ref sig .tc)
    (h2 : r ∉ ([main_v2] : List (Ref sig .tc))) (h1 : r ∉ ([main_v1] : List (Ref sig .tc))) (h0 : r ∉ ([main_v0] : List (Ref sig .tc))) :
    V3 m out c r = m ((c : Thread nD τ).loc r) :=
  (V3_of m out c r h2).trans <| (V2_of m out c r h1).trans <| (V1_of m c r h0).trans rfl

/-! ## The windows' blocks and the proof data's fixed part -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The proof data of the one pipeline on core `c`, but for what the output window's buffer holds after each point
    (`o`) and the invariant between points (`Φ`): the arrays as the region finds them, every input's buffer left at its
    block, the projection weights' two windows at half a share each, nothing owed. -/
def mkDat (c : Dev nD) (o : Fin cfg0.N → (cfg0.win 4).block.Idx → Elt F (cfg0.win 4).elt) (Φ : Fin (cfg0.N + 1) → sProp 𝕄) :
    Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => o t
  Φ := Φ
  q := qsh
  owed _ := 0

/-! ## @main as segments -/

/-- No core owes another anything: no level is assigned. -/
abbrev L0 : GSem nD τ sig → Finset Unit := fun _ => ∅
abbrev lv0 : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev Rst (c : Dev nD) : sProp 𝕄 := iprop(∃ W, owes (c : Thread nD τ) (0 : CellTallies nD τ sig Unit) W)

/-- The first reshape, over the unscoped buffers from the launch contents. -/
def seg0 : HostSeg (Ix := Unit) (Name := ℕ) (U := UR sig nD τ) (Lvl := ℕ) (pcfgs (F := F)) defs₀ Variants.none L0 lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rst
/-- The last reshape, over the unscoped buffers as the region leaves them. -/
def seg2 (out : (c : Dev nD) → Buf (Elt F) ((c : Thread nD τ).loc main_v1)) :
    HostSeg (Ix := Unit) (Name := ℕ) (U := UR sig nD τ) (Lvl := ℕ) (pcfgs (F := F)) defs₀ Variants.none L0 lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m out) Rst

end Cert.KernelIdeal.Hand

end
-- ==== Proof.KI.Acc.lean ====
/-
  What the scratch accumulator holds after each grid point, and the invariant between points.

  Point `n = 16 * e + k` is tile `k` of expert `e`. At tile 0 the body stores zeros and adds the tile's product onto
  them; at every later tile it adds the tile's product onto what the point before left; at tile 15 it also copies the
  accumulator into the output window's buffer.
-/
import proofs.«106736_j9483287789704_2_alg».proof.Proof.KI.Launch
import proofs.«106736_j9483287789704_2_alg».proof.Proof.Gen.KernelIdeal.Skeleton

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

variable (m : (ℓ : Loc nD τ sig) → Buf (Elt F) ℓ)

/-- One tile's step at point `t`: the body's product of the point's four input blocks added onto `a`. -/
def tileStep (c : Dev nD) (t : Fin cfg0.N) (a : Vec F S1024x2048 .f32) : Vec F S1024x2048 .f32 :=
  k0_pay2 (iblk m c 0 t) (iblk m c 1 t) (iblk m c 2 t) (iblk m c 3 t) a

/-- The accumulator after point `n`: restarted from zeros at the first tile of an expert, carried otherwise. -/
def accAt (c : Dev nD) : (n : ℕ) → n < cfg0.N → Vec F S1024x2048 .f32
  | 0, hn => tileStep m c ⟨0, hn⟩ (k0_pay1 (F := F))
  | n + 1, hn =>
    if (n + 1) % 16 = 0 then tileStep m c ⟨n + 1, hn⟩ (k0_pay1 (F := F))
    else tileStep m c ⟨n + 1, hn⟩ (accAt c n (Nat.lt_of_succ_lt hn))

theorem accAt_first (c : Dev nD) (t : Fin cfg0.N) (h0 : t.val % 16 = 0) :
    accAt m c t.val t.isLt = tileStep m c t (k0_pay1 (F := F)) := by
  obtain ⟨n, hn⟩ := t
  cases n with
  | zero => rfl
  | succ n => exact if_pos h0

theorem accAt_next (c : Dev nD) (t : Fin cfg0.N) (h0 : ¬t.val % 16 = 0) :
    accAt m c t.val t.isLt = tileStep m c t (accAt m c (t.val - 1) (Nat.lt_of_le_of_lt (Nat.sub_le _ _) t.isLt)) := by
  obtain ⟨n, hn⟩ := t
  cases n with
  | zero => exact absurd (Nat.zero_mod _) h0
  | succ n => exact if_neg h0

/-- What the output window's buffer holds after a point that stores it (the last tile of an expert): the accumulator,
    with a leading unit axis. At the other points the window is idle and this is not consulted. -/
def outBuf (c : Dev nD) (t : Fin cfg0.N) : (cfg0.win 4).block.Idx → Elt F (cfg0.win 4).elt :=
  k0_pay3 (accAt m c t.val t.isLt)

/-- The scratch operand, a whole scoped buffer of the kernel's own. -/
abbrev scratch : Memref sig .tc .vmem S1024x2048 .f32 := Memref.whole cc0_scratch0

/-- The invariant before point `n`: before the first point the scratch holds anything; afterwards what the point
    before left in it. -/
def PhiS (c : Dev nD) : (n : ℕ) → n ≤ cfg0.N → sProp 𝕄
  | 0, _ => iprop(∃ d, owns (c : Thread nD τ) scratch fullShare d)
  | n + 1, hn => owns (c : Thread nD τ) scratch fullShare (accAt m c n hn)

theorem PhiS_zero (c : Dev nD) (n : ℕ) (h : n ≤ cfg0.N) (hz : n = 0) :
    PhiS m c n h = iprop(∃ d, owns (c : Thread nD τ) scratch fullShare d) := by subst hz; rfl
theorem PhiS_succ (c : Dev nD) (n : ℕ) (hn : n < cfg0.N) :
    PhiS m c (n + 1) hn = owns (c : Thread nD τ) scratch fullShare (accAt m c n hn) := rfl
theorem PhiS_pos (c : Dev nD) (n : ℕ) (h : n ≤ cfg0.N) (hz : n ≠ 0) :
    PhiS m c n h = owns (c : Thread nD τ) scratch fullShare (accAt m c (n - 1) (by omega)) := by
  cases n with
  | zero => exact absurd rfl hz
  | succ n => rfl

/-- The invariant as the proof data takes it. -/
abbrev PhiF (c : Dev nD) (t : Fin (cfg0.N + 1)) : sProp 𝕄 := PhiS m c t.val (Nat.le_of_lt_succ t.isLt)

/-- The scoped buffers no window stages are the scratch, at anything. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scratch fullShare d) := by
  rw [scopedRest0_eq]; simp only [scratch, owns_whole]; rfl

end Cert.KernelIdeal.Hand

end
-- ==== Proof.KI.Frame.lean ====
/- The body obligation of the pipeline's proof data: at every grid point the body, run on the
   staging buffers at the point's input blocks and on the accumulator at what the point before left, leaves
   the accumulator at this point's running sum and, at the last tile of a row, the output window at it. -/
import proofs.«106736_j9483287789704_2_alg».proof.Proof.KI.Pieces
import proofs.«106736_j9483287789704_2_alg».proof.Proof.KI.Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data -/

/-- The proof data of the pipeline on core `c`: the output window's buffer after a point at the reshaped running
    sum, the invariant between points the accumulator at the running sum. -/
abbrev datF (c : Dev nD) : Dat τ (Elt F) Unit ℕ (UR sig nD τ) ℕ cfg0 c := mkDat m c (outBuf m c) (PhiF m c)

/-- Its arrays are the contents the region finds. -/
theorem A_eq (c : Dev nD) (w : Fin cfg0.W) : (datF m c).A w = V1 m c (Pipeline.arrRef spec0 w) := by
  dsimp only [datF, mkDat]

/-- What the body leaves, window by window. -/
theorem after0_0 (c : Dev nD) (t : Fin cfg0.N) : (datF m c).after 0 t = iblk m c 0 t := by dsimp only [datF, mkDat]
theorem after0_1 (c : Dev nD) (t : Fin cfg0.N) : (datF m c).after 1 t = iblk m c 1 t := by dsimp only [datF, mkDat]
theorem after0_2 (c : Dev nD) (t : Fin cfg0.N) : (datF m c).after 2 t = iblk m c 2 t := by dsimp only [datF, mkDat]
theorem after0_3 (c : Dev nD) (t : Fin cfg0.N) : (datF m c).after 3 t = iblk m c 3 t := by dsimp only [datF, mkDat]
theorem after0_4 (c : Dev nD) (t : Fin cfg0.N) : (datF m c).after 4 t = outBuf m c t := by dsimp only [datF, mkDat]

/-- The invariant at a point's start, restated at the point's position. -/
theorem PhiS_castSucc (c : Dev nD) (t : Fin cfg0.N) :
    (datF m c).Φ t.castSucc = PhiS m c t.val (Nat.le_of_lt t.isLt) := by
  rfl

/-! ## The inputs' buffers hold their blocks

An input window's current buffer holds the window's block at every point, fetched there or not: where it is not
fetched the block index has not moved, and the body leaves the block in place. -/

theorem before0_0 (c : Dev nD) (t : Fin cfg0.N) (d) : (datF m c).before 0 t d = iblk m c 0 t :=
  ((datF m c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (datF m c).before 1 t d = iblk m c 1 t :=
  ((datF m c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (datF m c).before 2 t d = iblk m c 2 t :=
  ((datF m c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (datF m c).before 3 t d = iblk m c 3 t :=
  ((datF m c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## What each case leaves in the accumulator and in the output window, at a point -/

/-- First tile of a row: whatever the accumulator held, the pieces written leave the running sum restarted. -/
theorem scratchA (c : Dev nD) (t : Fin cfg0.N) (h0 : t.val % 16 = 0) (h1 : ¬t.val % 16 = 15) (es0) :
    scM0_0.view.read (Elt F) (scM0_0.view.writes (Elt F) es0 (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.1) = accAt m c t.val t.isLt :=
  (View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))).trans
    ((sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).trans (accAt_first m c t h0).symm)

/-- Middle tile: the pieces written leave the running sum advanced by the tile. -/
theorem scratchB (c : Dev nD) (t : Fin cfg0.N) (h0 : ¬t.val % 16 = 0) (h1 : ¬t.val % 16 = 15) (es0) :
    scM0_0.view.read (Elt F) (scM0_0.view.writes (Elt F) es0 (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt m c (t.val - 1) (Nat.lt_of_le_of_lt (Nat.sub_le _ _) t.isLt))).2.1) = accAt m c t.val t.isLt :=
  (View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt m c (t.val - 1) (Nat.lt_of_le_of_lt (Nat.sub_le _ _) t.isLt)))).trans
    ((sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt m c (t.val - 1) (Nat.lt_of_le_of_lt (Nat.sub_le _ _) t.isLt))).trans (accAt_next m c t h0).symm)

/-- Last tile: the same for the accumulator, -/
theorem scratchC (c : Dev nD) (t : Fin cfg0.N) (h0 : ¬t.val % 16 = 0) (h1 : t.val % 16 = 15) (es0) :
    scM0_0.view.read (Elt F) (scM0_0.view.writes (Elt F) es0 (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt))).2.1) = accAt m c t.val t.isLt :=
  (View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt)))).trans
    ((sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt))).trans (accAt_next m c t h0).symm)

/-- and the output window's buffer is left at the finished sum, reshaped to the window's block. -/
theorem outC (c : Dev nD) (t : Fin cfg0.N) (h0 : ¬t.val % 16 = 0) (h1 : t.val % 16 = 15) (e4) :
    (ms0_4 t).view.read (Elt F) ((ms0_4 t).view.writes (Elt F) e4 (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt))).1) = outBuf m c t :=
  (View.read_writes_of_cover _ _ _ _ _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt)))).trans
    ((out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt))).trans
      (congrArg (k0_pay3 (F := F)) (accAt_next m c t h0).symm))

/-- Before any point the invariant holds the accumulator at some contents. -/
theorem PhiS_any (c : Dev nD) (n : ℕ) (h : n ≤ cfg0.N) :
    PhiS m c n h ⊢ (iprop(∃ d, owns (c : Thread nD τ) scM0_0 fullShare d) : sProp 𝕄) := by
  by_cases hz : n = 0
  · rw [PhiS_zero m c n h hz]
  · rw [PhiS_pos m c n h hz]
    iintro H; iexists _; iexact H

/-! ## The body obligation, at a generic point -/

/-- What the body is called with at point `t`, the windows one by one, -/
def bodyPre (c : Dev nD) (t : Fin cfg0.N) : sProp 𝕄 :=
  iprop((datF m c).Φ t.castSucc ∗ (datF m c).owesAt () t.castSucc
    ∗ (∃ d, owns (c : Thread nD τ) (ms0_0 t) fullShare ((datF m c).before 0 t d))
    ∗ (∃ d, owns (c : Thread nD τ) (ms0_1 t) fullShare ((datF m c).before 1 t d))
    ∗ (∃ d, owns (c : Thread nD τ) (ms0_2 t) fullShare ((datF m c).before 2 t d))
    ∗ (∃ d, owns (c : Thread nD τ) (ms0_3 t) fullShare ((datF m c).before 3 t d))
    ∗ (∃ d, owns (c : Thread nD τ) (ms0_4 t) fullShare ((datF m c).before 4 t d)))

/-- and what it returns. -/
def bodyPost (c : Dev nD) (t : Fin cfg0.N) : sProp 𝕄 :=
  iprop((datF m c).Φ t.succ ∗ (datF m c).owesAt () t.succ
    ∗ (datF m c).leavesExact 0 t
    ∗ (datF m c).leavesExact 1 t
    ∗ (datF m c).leavesExact 2 t
    ∗ (datF m c).leavesExact 3 t
    ∗ (datF m c).leavesExact 4 t)

set_option maxHeartbeats 4800000 in
/-- The body at any point. The inputs' buffers hold their blocks; the point's position modulo 16 says which of the
    three cases it is in; the invariant hands the body the accumulator at what the point before left (at anything at a
    first tile) and takes it back at this point's running sum; the output window is handed back as found except at
    a last tile, where it is left at the reshaped sum; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (datF m c).owesAt () t.succ = (datF m c).owesAt () t.castSucc from rfl]
  rw [show (datF m c).Φ t.succ = PhiS m c (t.val + 1) t.isLt from rfl, PhiS_succ]
  rw [PhiS_castSucc m c t]
  have hN : t.val < 128 := lt_of_lt_of_eq t.isLt (show cfg0.N = 128 from N_0)
  rw [show (datF m c).leavesExact 0 t = owns (c : Thread nD τ) (ms0_0 t) fullShare ((datF m c).after 0 t) from by
    unfold Dat.leavesExact; rw [liveAt0_0 t], after0_0]
  rw [show (datF m c).leavesExact 1 t = owns (c : Thread nD τ) (ms0_1 t) fullShare ((datF m c).after 1 t) from by
    unfold Dat.leavesExact; rw [liveAt0_1 t], after0_1]
  rw [show (datF m c).leavesExact 2 t = owns (c : Thread nD τ) (ms0_2 t) fullShare ((datF m c).after 2 t) from by
    unfold Dat.leavesExact; rw [liveAt0_2 t], after0_2]
  rw [show (datF m c).leavesExact 3 t = owns (c : Thread nD τ) (ms0_3 t) fullShare ((datF m c).after 3 t) from by
    unfold Dat.leavesExact; rw [liveAt0_3 t], after0_3]
  by_cases h0 : t.val % 16 = 0
  · have h1 : ¬t.val % 16 = 15 := by omega
    rw [Dat.leavesExact_idle (datF m c) 4 t (idleAt0_4_A t ((hcond0_0 t).mpr h0) (fun h => h1 ((hcond0_1 t).mp h))) (noFlush0_4_A t ((hcond0_0 t).mpr h0) (fun h => h1 ((hcond0_1 t).mp h)))]
    iintro ⟨HS, Ho, ⟨%d0, H0⟩, ⟨%d1, H1⟩, ⟨%d2, H2⟩, ⟨%d3, H3⟩, ⟨%d4, H4⟩⟩
    ihave HS0 := (PhiS_any m c t.val (Nat.le_of_lt t.isLt)) $$ HS
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 ((datF m c).before 4 t d4) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0]
    · unfold owns; iexists _; isplitr
      swap; · iexact HS0
      ipureintro; exact scratchA m c t h0 h1 es0
    isplitl [Ho]; · iexact Ho
    isplitl [H0]; · iexact H0
    isplitl [H1]; · iexact H1
    isplitl [H2]; · iexact H2
    isplitl [H3]; · iexact H3
    iexists _; iexact H4
  · by_cases h1 : t.val % 16 = 15
    · rw [show (datF m c).leavesExact 4 t = owns (c : Thread nD τ) (ms0_4 t) fullShare ((datF m c).after 4 t) from by
        unfold Dat.leavesExact; rw [liveAt0_4_C t (fun h => h0 ((hcond0_0 t).mp h)) ((hcond0_1 t).mpr h1)], after0_4]
      have hz : t.val ≠ 0 := by omega
      rw [PhiS_pos m c _ _ hz]
      iintro ⟨HS0, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact scratchC m c t h0 h1 es0
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact outC m c t h0 h1 e4
    · rw [Dat.leavesExact_idle (datF m c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      have hz : t.val ≠ 0 := by omega
      rw [PhiS_pos m c _ _ hz]
      iintro ⟨HS0, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt m c (t.val - 1) (Nat.lt_of_le_of_lt (Nat.sub_le _ _) t.isLt))).2.2 ((datF m c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact scratchB m c t h0 h1 es0
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (datF (F := F) m c) (defs₀ (F := F)) Variants.none () Set.univ := fun t => by
  rw [bigSep_W0, bigSep_W0]
  exact sound_body m c t

/-! ## The invariant at the region's ends -/

/-- What the launch hands the region — the accumulator at anything — is the invariant before the first point. -/
theorem hinF (c : Dev nD) :
    (Pipeline.scopedRest (Ix := Unit) (Name := ℕ) (U := UR sig nD τ) (Lvl := ℕ) (Val := Elt F) spec0 c : sProp 𝕄) ⊢ PhiF m c 0 := by
  rw [scopedRest_scratch, show PhiF m c 0 = PhiS m c 0 (Nat.zero_le _) from rfl, PhiS_zero m c 0 _ rfl]

/-- After the last point the invariant gives it back: the accumulator's named contents are forgotten. -/
theorem houtF (c : Dev nD) :
    PhiF m c (Fin.last cfg0.N) ⊢ (Pipeline.scopedRest (Ix := Unit) (Name := ℕ) (U := UR sig nD τ) (Lvl := ℕ) (Val := Elt F) spec0 c : sProp 𝕄) := by
  rw [scopedRest_scratch]
  exact PhiS_any m c _ _

end Cert.KernelIdeal.Hand

end
-- ==== Proof.KI.Region.lean ====
/-
  The kernel region as a segment of @main, and @main's run around any proof data built by `mkDat`.

  At the region's entry the projection weights' full share is split in two halves, one for the window on the gate
  columns and one for the window on the up columns; neither window writes, so at the exit both halves still hold the
  entry contents and are joined again. The result array leaves the region at what the pipeline's write-backs made of
  it, and the last reshape reads it.
-/
import proofs.«106736_j9483287789704_2_alg».proof.Proof.KI.Launch

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)
/-- The scoped buffers no window stages, at anything: what the invariant's two ends are made of. -/
abbrev scR (c : Dev nD) : sProp 𝕄 :=
  Pipeline.scopedRest (Ix := Unit) (Name := ℕ) (U := UR sig nD τ) (Lvl := ℕ) (Val := Elt F) spec0 c

/-- The proof data on every core. -/
abbrev dats (o : (c : Dev nD) → Fin cfg0.N → (cfg0.win 4).block.Idx → Elt F (cfg0.win 4).elt)
    (Φ : (c : Dev nD) → Fin (cfg0.N + 1) → sProp 𝕄) (_ : Fin 1) (c : Dev nD) : Dat τ (Elt F) Unit ℕ (UR sig nD τ) ℕ cfg0 c :=
  mkDat m c (o c) (Φ c)

/-- What the region leaves in its result array: the write-backs of all points applied. -/
abbrev outOf (o : (c : Dev nD) → Fin cfg0.N → (cfg0.win 4).block.Idx → Elt F (cfg0.win 4).elt)
    (Φ : (c : Dev nD) → Fin (cfg0.N + 1) → sProp 𝕄) (c : Dev nD) : Buf (Elt F) ((c : Thread nD τ).loc main_v1) :=
  (dats m o Φ 0 c).arrAt 4 cfg0.N

/-- The arrays one by one at named contents. -/
theorem arrays_named {c : Dev nD} (dat : Dat τ (Elt F) Unit ℕ (UR sig nD τ) ℕ cfg0 c) (hq : dat.q = qsh)
    (A : (w : Fin cfg0.W) → Buf (Elt F) ((cfg0.win w).arr.view.loc (c.tc : Thread nD τ)))
    (a0 : Buf (Elt F) ((c.tc : Thread nD τ).loc (Pipeline.arrRef spec0 0))) (a1 : Buf (Elt F) ((c.tc : Thread nD τ).loc (Pipeline.arrRef spec0 1)))
    (a2 : Buf (Elt F) ((c.tc : Thread nD τ).loc (Pipeline.arrRef spec0 2))) (a3 : Buf (Elt F) ((c.tc : Thread nD τ).loc (Pipeline.arrRef spec0 3)))
    (a4 : Buf (Elt F) ((c.tc : Thread nD τ).loc (Pipeline.arrRef spec0 4)))
    (h0 : A 0 = a0) (h1 : A 1 = a1) (h2 : A 2 = a2) (h3 : A 3 = a3) (h4 : A 4 = a4) :
    (dat.arrays A : sProp 𝕄)
      = iprop((((c.tc : Thread nD τ).loc (Pipeline.arrRef spec0 0)) ↦{fullShare} a0) ∗ (((c.tc : Thread nD τ).loc (Pipeline.arrRef spec0 1)) ↦{fullShare.left} a1)
          ∗ (((c.tc : Thread nD τ).loc (Pipeline.arrRef spec0 2)) ↦{fullShare.right} a2) ∗ (((c.tc : Thread nD τ).loc (Pipeline.arrRef spec0 3)) ↦{fullShare} a3)
          ∗ (((c.tc : Thread nD τ).loc (Pipeline.arrRef spec0 4)) ↦{fullShare} a4)) := by
  rw [arrays_list dat hq A, h0, h1, h2, h3, h4]

/-- An input window's array is never written: at every point it is the entry contents. -/
theorem arrAt_input (o : (c : Dev nD) → Fin cfg0.N → (cfg0.win 4).block.Idx → Elt F (cfg0.win 4).elt)
    (Φ : (c : Dev nD) → Fin (cfg0.N + 1) → sProp 𝕄) (c : Dev nD) (w : Fin cfg0.W) (hw : (cfg0.win w).isOut = false) (n : ℕ) :
    (dats m o Φ 0 c).arrAt w n = V1 m c (Pipeline.arrRef spec0 w) :=
  (dats m o Φ 0 c).arrAt_in w hw n

-- a library lemma stated over `cfgs p` at the pinned configuration unifies only when unification may unfold plain
-- definitions in a metavariable's type
set_option backward.isDefEq.respectTransparency.types false in
/-- THE REGION, for any contents of the output window's buffer and any invariant whose two ends are the scoped rest
    (the scratch at anything): entered from the unscoped buffers as the first reshape left them, left with the result
    array at `outOf` and every other buffer as it was. -/
def reg0 (o : (c : Dev nD) → Fin cfg0.N → (cfg0.win 4).block.Idx → Elt F (cfg0.win 4).elt)
    (Φ : (c : Dev nD) → Fin (cfg0.N + 1) → sProp 𝕄)
    (hbody : ∀ c, Pipeline.BodyObligationLoose (dats m o Φ 0 c) (defs₀ (F := F)) Variants.none () Set.univ)
    (hin : ∀ c, scR (F := F) c ⊢ Φ c 0)
    (hout : ∀ c, Φ c (Fin.last cfg0.N) ⊢ scR (F := F) c) :
    RegionSeg (pcfgs (F := F)) adm (dats m o Φ) () defs₀ Variants.none L0 lv0 0 where
  win := winFacts₀0
  block_pos := block_pos0
  stage_whole := stage_whole0
  K := PEmpty
  osem := fun k => k.elim
  ho := Pipeline.OwnSemFacts.none _
  hbody := hbody
  hwaits := Pipeline.hwaits_of_owed_zero _ _ _ _ L0 lv0 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outOf m o Φ) c) ∗ Rst c)
  X c := iprop(emp)
  Y c := iprop(emp)
  Z c := iprop((((c : Thread nD τ).loc main_arg0) ↦{fullShare} V1 m c main_arg0) ∗ (((c : Thread nD τ).loc main_v2) ↦{fullShare} V1 m c main_v2))
  hentry c := by
    rw [held_list, Pipeline.ownSems0_none,
      arrays_named (dats m o Φ 0 c) rfl _ (V1 m c main_v0) (V1 m c main_arg1) (V1 m c main_arg1) (V1 m c main_arg2) (V1 m c main_v1) rfl rfl rfl rfl rfl]
    iintro ⟨⟨⟨H0, H1, H2, Hv0, Hv1, Hv2⟩, HO⟩, -, -⟩
    ihave H1' := (pointsTo_share (PosShare.mem_left_op_right fullShare)).1 $$ H1
    icases H1' with ⟨H1l, H1r⟩
    imodintro
    isplitl [Hv0 H1l H1r H2 Hv1]
    · isplitl [Hv0]; · iexact Hv0
      isplitl [H1l]; · iexact H1l
      isplitl [H1r]; · iexact H1r
      isplitl [H2]; · iexact H2
      iexact Hv1
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H0]; · iexact H0
    iexact Hv2
  hin c := by
    rw [show (dats m o Φ 0 c).Φ 0 = Φ c 0 from rfl]
    iintro ⟨-, -, Hr⟩
    iapply (hin c); iexact Hr
  hout c := by
    rw [Pipeline.ownSems0_none, show (dats m o Φ 0 c).Φ (Fin.last (Pipeline.pin (pcfgs (F := F)) adm 0).N) = Φ c (Fin.last cfg0.N) from rfl]
    iintro H
    isplitr; · iempintro
    isplitr; · iempintro
    iapply (hout c); iexact H
  hexit c := by
    rw [held_list, V2_of m _ c main_arg0 (by decide), V2_of m _ c main_arg1 (by decide), V2_of m _ c main_arg2 (by decide),
      V2_of m _ c main_v0 (by decide), V2_v1, V2_of m _ c main_v2 (by decide),
      arrays_named (dats m o Φ 0 c) rfl _ (V1 m c main_v0) (V1 m c main_arg1) (V1 m c main_arg1) (V1 m c main_arg2) (outOf m o Φ c)
        (arrAt_input m o Φ c 0 rfl _) (arrAt_input m o Φ c 1 rfl _) (arrAt_input m o Φ c 2 rfl _) (arrAt_input m o Φ c 3 rfl _) rfl]
    iintro ⟨⟨Hv0, H1l, H1r, H2, Hv1⟩, HO, -, ⟨H0, Hv2⟩⟩
    ihave H1 := (pointsTo_share (PosShare.mem_left_op_right fullShare)).2 $$ [H1l H1r]
    · isplitl [H1l] <;> iassumption
    imodintro
    isplitr [HO]
    · isplitl [H0]; · iexact H0
      isplitl [H1]; · iexact H1
      isplitl [H2]; · iexact H2
      isplitl [Hv0]; · iexact Hv0
      isplitl [Hv1]; · iexact Hv1
      iexact Hv2
    · unfold Pipeline.Dat.owesAt Pipeline.owesWithin
      icases HO with ⟨%W, -, HO⟩; iexists W; iexact HO

end Cert.KernelIdeal.Hand

end
-- ==== Proof.KI.Run.lean ====
/-
  @main's run: the first reshape, the kernel region, the last reshape, composed.

  Every weakly fair execution terminates without a fault; at the end the result buffer holds the last reshape of what
  the region left in its result array, and the three argument arrays hold what they held at launch.
-/
import proofs.«106736_j9483287789704_2_alg».proof.Proof.KI.Region

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the staging cells' and the pipeline's transfers'. -/
def u₀ : UR sig nD τ := initOf (Pipeline.cells cfgs cellOf_inj) (Pipeline.launchToks cfgs cellOf_inj)

-- the kit's implicit arguments are found by unifying its conclusion with this one, which takes unfolding plain
-- definitions in a metavariable's type
set_option backward.isDefEq.respectTransparency.types false in
/-- THE RUN, around any proof data built by `mkDat` whose body obligation holds and whose invariant starts from and ends
    in the scratch at anything. -/
theorem run_of (o : (c : Dev nD) → Fin cfg0.N → (cfg0.win 4).block.Idx → Elt F (cfg0.win 4).elt)
    (Φ : (c : Dev nD) → Fin (cfg0.N + 1) → sProp 𝕄)
    (hbody : ∀ c, Pipeline.BodyObligationLoose (dats m o Φ 0 c) (defs₀ (F := F)) Variants.none () Set.univ)
    (hin : ∀ c, scR (F := F) c ⊢ Φ c 0) (hout : ∀ c, Φ c (Fin.last cfg0.N) ⊢ scR (F := F) c) :
    θ_run defs (onTc (τ := τ) (main (F := F))) ⟨m, fun _ => 0, ρ⟩ (fun r => ∀ c : Dev nD,
      r.2.mem ((c.tc : Thread nD τ).loc main_v2) = V3 m (outOf m o Φ) c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m o Φ) () cellOf_inj emb₁ defs₀ Variants.none L0 lv0 m ρ main
    [.host (seg0 m), .region (reg0 m o Φ hbody hin hout), .host (seg2 m (outOf m o Φ))]
    (fun c Q => by rw [main_segs adm (dats m o Φ) () Variants.none L0 lv0 (seg0 m) (seg2 m (outOf m o Φ)) (reg0 m o Φ hbody hin hout) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V3 m (outOf m o Φ) c))
    (hch := ⟨fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v2) = V3 m (outOf m o Φ) c main_v2
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all (Pipeline.ucRefs τ sig) (fun b => ((c : Thread nD τ).1, b)) (V3 m (outOf m o Φ) c) s') $$ [Hh HSI]
      · isplitl [Hh] <;> iassumption
      icases Hr with ⟨%h, HSI⟩
      imodintro
      isplitr
      · ipureintro
        refine ⟨h (Proc.devRef .tc main_v2) (Finset.mem_filter.mpr ⟨StableHlo.devRef_mem_tcRefs main_v2, by decide⟩), ?_, ?_, ?_⟩
        · exact (h (Proc.devRef .tc main_arg0) (Finset.mem_filter.mpr ⟨StableHlo.devRef_mem_tcRefs main_arg0, by decide⟩)).trans (V3_arg m _ c main_arg0 (by decide) (by decide) (by decide))
        · exact (h (Proc.devRef .tc main_arg1) (Finset.mem_filter.mpr ⟨StableHlo.devRef_mem_tcRefs main_arg1, by decide⟩)).trans (V3_arg m _ c main_arg1 (by decide) (by decide) (by decide))
        · exact (h (Proc.devRef .tc main_arg2) (Finset.mem_filter.mpr ⟨StableHlo.devRef_mem_tcRefs main_arg2, by decide⟩)).trans (V3_arg m _ c main_arg2 (by decide) (by decide) (by decide))
      · iexact HSI)
    (hQ := fun _ h => h)

/-- info: 'Cert.KernelIdeal.Hand.run_of' depends on axioms: [propext, Classical.choice, Quot.sound] -/
#guard_msgs in #print axioms run_of

end Cert.KernelIdeal.Hand

end
-- ==== Proof.KI.Main.lean ====
/-
  The kernel program's run and its frame, at any float instance.

  The proof data names, after each grid point, the scratch accumulator and, at an expert's last tile, the output
  window's buffer; with the body's three cases run against it, @main terminates without a fault, its result buffer
  ends at the last reshape of the region's result array, and its three argument arrays end as launched.
-/
import proofs.«106736_j9483287789704_2_alg».proof.Proof.KI.Frame
import proofs.«106736_j9483287789704_2_alg».proof.Proof.KI.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The run, with the result buffer named. -/
theorem run_main :
    θ_run defs (onTc (τ := τ) (main (F := F))) ⟨m, fun _ => 0, ρ⟩ (fun r => ∀ c : Dev nD,
      r.2.mem ((c.tc : Thread nD τ).loc main_v2) = V3 m (outOf m (outBuf m) (PhiF m)) c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ (outBuf m) (PhiF m) (fun c => (body_obligation m c).loose) (hinF m) (houtF m)

/-- The frame: every weakly fair execution terminates, nothing faults, the argument arrays end unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.KI.Result.lean ====
/-
  What the last reshape leaves in the result buffer: the region's result array `[8, 1024, 2048]` read as `[8192, 2048]`.
-/
import proofs.«106736_j9483287789704_2_alg».proof.Proof.KI.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

/-- The result buffer after the last reshape is the region's result array, reshaped. -/
theorem V3_v2 (out : (c : Dev nD) → Buf (Elt F) ((c : Thread nD τ).loc main_v1)) (c : Dev nD) :
    (V3 m out c main_v2 : S8192x2048.Idx → Elt F .f32) = shapeCast S8192x2048 (out c : S8x1024x2048.Idx → Elt F .f32) shapeCasts_S8x1024x2048_S8192x2048 := by
  show StableHlo.after hostOps1 _ (Proc.devRef .tc main_v2) = _
  after_results
  rw [V2_v1]
  rfl

/-- The region's first input array is the first reshape of the activations. -/
theorem V1_v0 (c : Dev nD) :
    (V1 m c main_v0 : S8x1024x2048.Idx → Elt F .f32) = shapeCast S8x1024x2048 (m ((c : Thread nD τ).loc main_arg0) : S8192x2048.Idx → Elt F .f32) shapeCasts_S8192x2048_S8x1024x2048 := by
  show StableHlo.after hostOps0 _ (Proc.devRef .tc main_v0) = _
  after_results
  rfl

end Cert.KernelIdeal.Hand

end
-- ==== Proof.KI.BlockReads.lean ====
/-
  The five windows' blocks, read at an index.

  The grid is 8 experts by 16 tiles; point `t` is tile `t % 16` of expert `t / 16`. Window 0 takes the expert's 1024
  activation rows whole; windows 1 and 2 take 256 columns of the gate half and of the up half of the expert's
  projection weights; window 3 takes 256 rows of the expert's down projection; window 4 is the expert's 1024 result
  rows. A block's coordinate along an axis is its index there times the block's size, plus the coordinate inside the
  block.
-/
import proofs.«106736_j9483287789704_2_alg».proof.Proof.KI.Launch
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ)

/-! ## The index maps over the grid -/

/-- Window 0's block index at point `t`: the expert's, and zero along the rows and the hidden axis. -/
theorem idx0 : ∀ t : Fin cfg0.N, win0_0.index t (0 : Fin 3) = t.val / 16 ∧ win0_0.index t (1 : Fin 3) = 0
    ∧ win0_0.index t (2 : Fin 3) = 0 :=
  (by decide +kernel : ∀ t : Fin grid0.N, _)

/-- Window 1's: the expert's, zero, and the tile's among the gate half's 16 column blocks. -/
theorem idx1 : ∀ t : Fin cfg0.N, win0_1.index t (0 : Fin 3) = t.val / 16 ∧ win0_1.index t (1 : Fin 3) = 0
    ∧ win0_1.index t (2 : Fin 3) = t.val % 16 :=
  (by decide +kernel : ∀ t : Fin grid0.N, _)

/-- Window 2's: the expert's, zero, and the tile's among the up half's column blocks, 16 blocks further on. -/
theorem idx2 : ∀ t : Fin cfg0.N, win0_2.index t (0 : Fin 3) = t.val / 16 ∧ win0_2.index t (1 : Fin 3) = 0
    ∧ win0_2.index t (2 : Fin 3) = 16 + t.val % 16 :=
  (by decide +kernel : ∀ t : Fin grid0.N, _)

/-- Window 3's: the expert's, the tile's among the 16 row blocks, and zero. -/
theorem idx3 : ∀ t : Fin cfg0.N, win0_3.index t (0 : Fin 3) = t.val / 16 ∧ win0_3.index t (1 : Fin 3) = t.val % 16
    ∧ win0_3.index t (2 : Fin 3) = 0 :=
  (by decide +kernel : ∀ t : Fin grid0.N, _)

/-- Window 4's: the expert's, and zero along the rows and the hidden axis. -/
theorem idx4 : ∀ t : Fin cfg0.N, win0_4.index t (0 : Fin 3) = t.val / 16 ∧ win0_4.index t (1 : Fin 3) = 0
    ∧ win0_4.index t (2 : Fin 3) = 0 :=
  (by decide +kernel : ∀ t : Fin grid0.N, _)

/-- A point is below 128. -/
theorem point_lt (t : Fin cfg0.N) : t.val < 128 := by
  have h : t.val < grid0.N := t.isLt
  rw [N_0] at h
  exact h

/-- The expert of point `t`. -/
def pe (t : Fin cfg0.N) : Fin 8 := ⟨t.val / 16, by have := point_lt t; omega⟩
/-- The tile of point `t`. -/
def pn (t : Fin cfg0.N) : Fin 16 := ⟨t.val % 16, Nat.mod_lt _ (by decide)⟩

/-! ## The input blocks at an index -/

/-- Window 0's block at point `t` is the activations of expert `t / 16`. -/
theorem iblk0_apply (c : Dev nD) (t : Fin cfg0.N) (r : Fin 1024) (k : Fin 2048) :
    (iblk m c 0 t : Vec F S1x1024x2048 .f32) (ix3 (0 : Fin 1) r k)
      = (V1 m c main_v0 : S8x1024x2048.Idx → Elt F .f32) (ix3 (pe t) r k) := by
  obtain ⟨e0, e1, e2⟩ := idx0 t
  unfold iblk
  rw [View.read_apply]
  show V1 m c main_v0 _ = V1 m c main_v0 _
  congr 1
  funext a
  apply Fin.ext
  match a with
  | ⟨0, _⟩ => show win0_0.index t (0 : Fin 3) * 1 + 1 * 0 = t.val / 16; omega
  | ⟨1, _⟩ => show win0_0.index t (1 : Fin 3) * 1024 + 1 * r.val = r.val; omega
  | ⟨2, _⟩ => show win0_0.index t (2 : Fin 3) * 2048 + 1 * k.val = k.val; omega

/-- Window 1's block at point `t` is columns `256 * (t % 16) …` of the gate half of expert `t / 16`'s projection. -/
theorem iblk1_apply (c : Dev nD) (t : Fin cfg0.N) (k : Fin 2048) (j : Fin 256) :
    (iblk m c 1 t : Vec F S1x2048x256 .f32) (ix3 (0 : Fin 1) k j)
      = (V1 m c main_arg1 : S8x2048x8192.Idx → Elt F .f32)
          (ix3 (pe t) k (⟨256 * (t.val % 16) + j.val, by have := j.isLt; omega⟩ : Fin 8192)) := by
  obtain ⟨e0, e1, e2⟩ := idx1 t
  unfold iblk
  rw [View.read_apply]
  show V1 m c main_arg1 _ = V1 m c main_arg1 _
  congr 1
  funext a
  apply Fin.ext
  match a with
  | ⟨0, _⟩ => show win0_1.index t (0 : Fin 3) * 1 + 1 * 0 = t.val / 16; omega
  | ⟨1, _⟩ => show win0_1.index t (1 : Fin 3) * 2048 + 1 * k.val = k.val; omega
  | ⟨2, _⟩ => show win0_1.index t (2 : Fin 3) * 256 + 1 * j.val = 256 * (t.val % 16) + j.val; omega

/-- Window 2's block at point `t` is the same columns of the up half, 4096 columns further on. -/
theorem iblk2_apply (c : Dev nD) (t : Fin cfg0.N) (k : Fin 2048) (j : Fin 256) :
    (iblk m c 2 t : Vec F S1x2048x256 .f32) (ix3 (0 : Fin 1) k j)
      = (V1 m c main_arg1 : S8x2048x8192.Idx → Elt F .f32)
          (ix3 (pe t) k (⟨4096 + 256 * (t.val % 16) + j.val, by have := j.isLt; omega⟩ : Fin 8192)) := by
  obtain ⟨e0, e1, e2⟩ := idx2 t
  unfold iblk
  rw [View.read_apply]
  show V1 m c main_arg1 _ = V1 m c main_arg1 _
  congr 1
  funext a
  apply Fin.ext
  match a with
  | ⟨0, _⟩ => show win0_2.index t (0 : Fin 3) * 1 + 1 * 0 = t.val / 16; omega
  | ⟨1, _⟩ => show win0_2.index t (1 : Fin 3) * 2048 + 1 * k.val = k.val; omega
  | ⟨2, _⟩ => show win0_2.index t (2 : Fin 3) * 256 + 1 * j.val = 4096 + 256 * (t.val % 16) + j.val; omega

/-- Window 3's block at point `t` is rows `256 * (t % 16) …` of expert `t / 16`'s down projection. -/
theorem iblk3_apply (c : Dev nD) (t : Fin cfg0.N) (j : Fin 256) (h : Fin 2048) :
    (iblk m c 3 t : Vec F S1x256x2048 .f32) (ix3 (0 : Fin 1) j h)
      = (V1 m c main_arg2 : S8x4096x2048.Idx → Elt F .f32)
          (ix3 (pe t) (⟨256 * (t.val % 16) + j.val, by have := j.isLt; omega⟩ : Fin 4096) h) := by
  obtain ⟨e0, e1, e2⟩ := idx3 t
  unfold iblk
  rw [View.read_apply]
  show V1 m c main_arg2 _ = V1 m c main_arg2 _
  congr 1
  funext a
  apply Fin.ext
  match a with
  | ⟨0, _⟩ => show win0_3.index t (0 : Fin 3) * 1 + 1 * 0 = t.val / 16; omega
  | ⟨1, _⟩ => show win0_3.index t (1 : Fin 3) * 256 + 1 * j.val = 256 * (t.val % 16) + j.val; omega
  | ⟨2, _⟩ => show win0_3.index t (2 : Fin 3) * 2048 + 1 * h.val = h.val; omega

/-! ## What the region finds, as the launch memory -/

/-- The reshaped activations: element `(e, r, k)` is element `(e * 1024 + r, k)` of the launch's. -/
theorem V1_v0_apply (c : Dev nD) (e : Fin 8) (r : Fin 1024) (k : Fin 2048) :
    (V1 m c main_v0 : S8x1024x2048.Idx → Elt F .f32) (ix3 e r k)
      = (m ((c : Thread nD τ).loc main_arg0) : S8192x2048.Idx → Elt F .f32)
          (ix2 (⟨e.val * 1024 + r.val, by have := e.isLt; have := r.isLt; omega⟩ : Fin 8192) k) := by
  have hv : (V1 m c main_v0 : S8x1024x2048.Idx → Elt F .f32)
      = shapeCast _ (m ((c : Thread nD τ).loc main_arg0) : S8192x2048.Idx → Elt F .f32) shapeCasts_S8192x2048_S8x1024x2048 := by
    show StableHlo.after hostOps0 (V0 m c) (Proc.devRef .tc main_v0) = _
    after_results
    rfl
  rw [hv]
  exact shapeCast_apply _ shapeCasts_S8192x2048_S8x1024x2048 _ _
    (by rewrite [Shape.rowMajor_val_two, Shape.rowMajor_val_three]; rfl)

/-- The projection weights reach the region as launched; -/
theorem V1_arg1 (c : Dev nD) : V1 m c main_arg1 = m ((c : Thread nD τ).loc main_arg1) :=
  V1_of m c main_arg1 (by decide)

/-- and so do the down projections. -/
theorem V1_arg2 (c : Dev nD) : V1 m c main_arg2 = m ((c : Thread nD τ).loc main_arg2) :=
  V1_of m c main_arg2 (by decide)

end Cert.KernelIdeal.Hand

end
-- ==== Proof.KI.OutArray.lean ====
import proofs.«106736_j9483287789704_2_alg».proof.Proof.KI.Launch
import proofs.«106736_j9483287789704_2_alg».proof.Proof.Gen.KernelIdeal.Points
import Idealize.ShloMosaic.Lib.Pipeline.Value
import Idealize.ShloMosaic.Lib.ValueIdx

/-!
# From the result window's blocks to the result array

The result window's block at grid point t is the slab [1, 1024, 2048] of the array [8, 1024, 2048] at
expert t / 16. It is written back at the last point of each expert's sixteen, t % 16 = 15, and at no other.
If what each such point writes back is the expert's slab of one function of the whole array, the array
ends holding that function: the eight written slabs cover it, expert e's by the point 16 * e + 15.
-/

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- The result window's block index at every grid point: the expert on the first axis, zero on the others. -/
theorem out_idx_facts : ∀ t : Fin cfg0.N, win0_4.index t (0 : Fin 3) = t.val / 16
    ∧ win0_4.index t (1 : Fin 3) = 0 ∧ win0_4.index t (2 : Fin 3) = 0 :=
  (by decide +kernel : ∀ t : Fin grid0.N, _)

/-- An index of the array is in point t's block iff each coordinate is in the block's range on its axis. -/
theorem out_mem_blk (t : Fin cfg0.N) (i : S8x1024x2048.Idx) :
    i ∈ ((cfg0.win 4).blk t).view.set ↔ ∀ a : Fin 3, win0_4.index t a * S1x1024x2048.size a ≤ (i a).val
      ∧ (i a).val < win0_4.index t a * S1x1024x2048.size a + S1x1024x2048.size a := by
  show i ∈ ((View.whole main_v1).slice (win0_4.rect t)).set ↔ _
  rw [View.set_slice_whole, Rect.mem_set_unit]
  exact Iff.rfl

/-- What a writing point writes back is its expert's slab of the function. -/
theorem out_flushed_eq (c : Dev nD) (o : Fin cfg0.N → (cfg0.win 4).block.Idx → Elt F (cfg0.win 4).elt)
    (Φ : Fin (cfg0.N + 1) → sProp 𝕄) (Gout : S8x1024x2048.Idx → Elt F .f32)
    (ho : ∀ (t : Fin cfg0.N) (ht : t.val % 16 = 15) (r : Fin 1024) (h : Fin 2048),
      o t (ix3 (0 : Fin 1) r h)
        = Gout (ix3 (⟨t.val / 16, by have hN : cfg0.N = 128 := N_0; have := t.isLt; omega⟩ : Fin 8) r h))
    (t : Fin cfg0.N) (ht : t.val % 16 = 15) :
    (mkDat m c o Φ).flushed 4 t = ((cfg0.win 4).blk t).view.read (Elt F) Gout := by
  show (cfg0.win 4).cut (grid0.coords t) ((mkDat m c o Φ).after 4 t) = _
  dsimp only [mkDat]
  obtain ⟨e0, e1, e2⟩ := out_idx_facts t
  funext y
  have hy0 : (y 0).val < 1 := (y 0).isLt
  have hy1 : (y 1).val < 1024 := (y 1).isLt
  have hy2 : (y 2).val < 2048 := (y 2).isLt
  show o t ((cfg0.win 4).xinj (grid0.coords t) y) = Gout (((cfg0.win 4).blk t).view.emb y)
  have el : (cfg0.win 4).xinj (grid0.coords t) y = ix3 (0 : Fin 1) ⟨(y 1).val, hy1⟩ ⟨(y 2).val, hy2⟩ :=
    funext fun a => Fin.ext (by
      match a with
      | ⟨0, _⟩ => show (y 0).val = 0; omega
      | ⟨1, _⟩ => rfl
      | ⟨2, _⟩ => rfl)
  have er : ((cfg0.win 4).blk t).view.emb y
      = ix3 (⟨t.val / 16, by have hN : cfg0.N = 128 := N_0; have := t.isLt; omega⟩ : Fin 8)
          ⟨(y 1).val, hy1⟩ ⟨(y 2).val, hy2⟩ :=
    funext fun a => Fin.ext (by
      match a with
      | ⟨0, _⟩ => show win0_4.index t (0 : Fin 3) * 1 + 1 * (y 0).val = t.val / 16; omega
      | ⟨1, _⟩ => show win0_4.index t (1 : Fin 3) * 1024 + 1 * (y 1).val = (y 1).val; omega
      | ⟨2, _⟩ => show win0_4.index t (2 : Fin 3) * 2048 + 1 * (y 2).val = (y 2).val; omega)
  rw [el, er]
  exact ho t ht _ _

/-- Every index of the array is in the block of a writing point: expert e's slab in that of 16 * e + 15. -/
theorem out_cover (i : S8x1024x2048.Idx) :
    ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 2048 := (i 2).isLt
  have hN : cfg0.N = 128 := N_0
  let t : Fin cfg0.N := ⟨16 * (i 0).val + 15, by omega⟩
  have htv : t.val = 16 * (i 0).val + 15 := rfl
  obtain ⟨e0, e1, e2⟩ := out_idx_facts t
  refine ⟨t, (flush0_4 t).mpr (by omega), ?_⟩
  rw [out_mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 2048 ≤ (i 2).val ∧ (i 2).val < win0_4.index t (2 : Fin 3) * 2048 + 2048
    omega

/-- The result array after the run is the function each writing point writes its expert's slab of. -/
theorem out_array (c : Dev nD) (o : Fin cfg0.N → (cfg0.win 4).block.Idx → Elt F (cfg0.win 4).elt)
    (Φ : Fin (cfg0.N + 1) → sProp 𝕄) (Gout : S8x1024x2048.Idx → Elt F .f32)
    (ho : ∀ (t : Fin cfg0.N) (ht : t.val % 16 = 15) (r : Fin 1024) (h : Fin 2048),
      o t (ix3 (0 : Fin 1) r h)
        = Gout (ix3 (⟨t.val / 16, by have hN : cfg0.N = 128 := N_0; have := t.isLt; omega⟩ : Fin 8) r h)) :
    (mkDat m c o Φ).arrAt 4 cfg0.N = Gout :=
  (mkDat m c o Φ).arrAt_eq_of_cover 4 Gout
    (fun t hf => out_flushed_eq m c o Φ Gout ho t ((flush0_4 t).mp hf)) out_cover

end Cert.KernelIdeal.Hand

end
-- ==== Proof.KernelPayload.lean ====
import proofs.«106736_j9483287789704_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
# The three values the kernel body stores, read at an index over the extended reals

The body keeps a running sum in a scratch array [1024, 2048]. At the first step of a row of the grid it
stores zero there; at every step it adds to it the product of one tile of gated values [1024, 256] with
one tile [256, 2048] of the down projection, the gated values being up * (gate * logistic gate) with
gate and up the products of the activations [1024, 2048] with one tile [2048, 256] of the gate and
of the up projection; at the last step it copies the running sum to the result block.

Each value is read here at an index, as sums and products of extended reals. Narrowing to the 16-bit
format is the identity on extended reals, and a product of matrices accumulated into zero is the plain sum
of products over the contracted axis.
-/

noncomputable section

open scoped BigOperators

namespace Cert.Moe.Pay

open Cert.KernelIdeal Cert.KernelIdeal.Gen Idealize.ShloMosaic Idealize.ShloMosaic.ValueIdx

/-! ## The two products of matrices, into zero, at an index -/

theorem mm_in_apply_lhs0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl
theorem mm_in_apply_rhs1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- The product [1024, 2048] × [2048, 256] accumulated into zero, at (t, j): the sum over the hidden axis. -/
theorem mm_in_apply (a : FVec Ideal S1024x2048 .bf16) (b : FVec Ideal S2048x256 .bf16) (t : Fin 1024) (j : Fin 256) :
    matmul dot_S1024x2048_S2048x256_S1024x256_1_0_0_1_n_n none a b (constant (F := Ideal) S1024x256 .f32 0x00000000#32) (ix2 t j)
      = ∑ k : Fin 2048, a (ix2 t k) * b (ix2 k j) := by
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 t j) ((contrEquiv1 dot_S1024x2048_S2048x256_S1024x256_1_0_0_1_n_n 2048 rfl rfl).symm k) = ix2 t k :=
    funext fun c => Fin.ext (by
      match c with
      | ⟨0, _⟩ => exact mm_in_apply_lhs0 _ _
      | ⟨1, _⟩ => exact (dot_S1024x2048_S2048x256_S1024x256_1_0_0_1_n_n.lhsIdx_val_of_single rfl _ _).trans hk)
  have er : dot_S1024x2048_S2048x256_S1024x256_1_0_0_1_n_n.rhsIdx (ix2 t j) ((contrEquiv1 dot_S1024x2048_S2048x256_S1024x256_1_0_0_1_n_n 2048 rfl rfl).symm k) = ix2 k j :=
    funext fun c => Fin.ext (by
      match c with
      | ⟨0, _⟩ => exact (dot_S1024x2048_S2048x256_S1024x256_1_0_0_1_n_n.rhsIdx_val_of_single rfl _ _).trans hk
      | ⟨1, _⟩ => exact mm_in_apply_rhs1 _ _)
  rw [el, er]

theorem mm_out_apply_lhs0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl
theorem mm_out_apply_rhs1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl

/-- The product [1024, 256] × [256, 2048] accumulated into zero, at (t, h): the sum over the 256 columns of the tile. -/
theorem mm_out_apply (a : FVec Ideal S1024x256 .bf16) (b : FVec Ideal S256x2048 .bf16) (t : Fin 1024) (j : Fin 2048) :
    matmul dot_S1024x256_S256x2048_S1024x2048_1_0_0_1_n_n none a b (constant (F := Ideal) S1024x2048 .f32 0x00000000#32) (ix2 t j)
      = ∑ k : Fin 256, a (ix2 t k) * b (ix2 k j) := by
  simp only [matmul]
  rw [Ideal.matmul_constant_zero_apply, ← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 t j) ((contrEquiv1 dot_S1024x256_S256x2048_S1024x2048_1_0_0_1_n_n 256 rfl rfl).symm k) = ix2 t k :=
    funext fun c => Fin.ext (by
      match c with
      | ⟨0, _⟩ => exact mm_out_apply_lhs0 _ _
      | ⟨1, _⟩ => exact (dot_S1024x256_S256x2048_S1024x2048_1_0_0_1_n_n.lhsIdx_val_of_single rfl _ _).trans hk)
  have er : dot_S1024x256_S256x2048_S1024x2048_1_0_0_1_n_n.rhsIdx (ix2 t j) ((contrEquiv1 dot_S1024x256_S256x2048_S1024x2048_1_0_0_1_n_n 256 rfl rfl).symm k) = ix2 k j :=
    funext fun c => Fin.ext (by
      match c with
      | ⟨0, _⟩ => exact (dot_S1024x256_S256x2048_S1024x2048_1_0_0_1_n_n.rhsIdx_val_of_single rfl _ _).trans hk
      | ⟨1, _⟩ => exact mm_out_apply_rhs1 _ _)
  rw [el, er]

/-! ## The stored values -/

/-- The value stored at the first step: zero everywhere. -/
theorem pay1_apply (i : S1024x2048.Idx) : k0_pay1 (F := Ideal) i = 0 := by
  unfold k0_pay1
  rw [shapeCast_self]
  exact Ideal.ofBits_zero_f32

/-- The value stored at the last step: the running sum, under one more leading unit axis. -/
theorem pay3_apply (v30 : Vec Ideal S1024x2048 .f32) (t : Fin 1024) (h : Fin 2048) :
    k0_pay3 (F := Ideal) v30 (ix3 (0 : Fin 1) t h) = v30 (ix2 t h) := by
  unfold k0_pay3
  exact shapeCast_ab_1ab_apply v30 shapeCasts_S1024x2048_S1x1024x2048 (0 : Fin 1) t h

/-- The logistic function of a vector, at an index, is the logistic function of the element. -/
theorem logistic_apply {s : Shape} {φ : FTy} (a : FVec Ideal s φ) (i : s.Idx) :
    logistic a i = Ideal.logistic (a i) := rfl

/-- The value stored at every step: the running sum plus, over the 256 columns of the tile, the gated value
    (the up product times the gate product times its logistic) times the down projection's element. -/
theorem pay2_apply (v3 : Vec Ideal S1x1024x2048 .f32) (v6 v9 : Vec Ideal S1x2048x256 .f32)
    (v12 : Vec Ideal S1x256x2048 .f32) (v21 : Vec Ideal S1024x2048 .f32) (t : Fin 1024) (h : Fin 2048) :
    k0_pay2 (F := Ideal) v3 v6 v9 v12 v21 (ix2 t h)
      = v21 (ix2 t h) + ∑ j : Fin 256,
          ((∑ k : Fin 2048, v3 (ix3 0 t k) * v9 (ix3 0 k j))
            * ((∑ k : Fin 2048, v3 (ix3 0 t k) * v6 (ix3 0 k j))
              * Ideal.logistic (∑ k : Fin 2048, v3 (ix3 0 t k) * v6 (ix3 0 k j))))
          * v12 (ix3 0 j h) := by
  unfold k0_pay2
  rw [shapeCast_self, addf_apply, mm_out_apply]
  refine congrArg (v21 (ix2 t h) + ·) (Finset.sum_congr rfl fun j _ => ?_)
  rw [truncf_apply, truncf_apply, mulf_apply, mulf_apply, logistic_apply, mm_in_apply, mm_in_apply,
    shapeCast_1ab_ab_apply]
  simp only [truncf_apply, shapeCast_1ab_ab_apply]

end Cert.Moe.Pay

end
-- ==== Proof.MoeSpec.lean ====
/-
  The function both programs compute, index by index, over the extended reals.

  There are 8 experts; expert `e` owns the 1024 token rows `e * 1024 + t` of the activations `x : [8192, 2048]`, a
  projection `w e : [2048, 8192]` whose first 4096 output columns are the GATE and whose last 4096 are the UP half, and a
  down projection `d e : [4096, 2048]`. For a token row the gate and up values are the dot products of the row with a
  column of `w e`; the gated value is `up * (gate * logistic gate)` (SwiGLU: `silu g = g * (1 / (1 + exp (-g)))`); the
  result is the dot product of the 4096 gated values with a column of `d e`.
-/
import Idealize.ShloMosaic.PureOps.Ideal
import Idealize.ShloMosaic.Lib.ValueIdx

noncomputable section

open scoped BigOperators

namespace Cert.Moe

open Idealize.ShloMosaic Idealize.ShloMosaic.ValueIdx

/-- The activations' shape, `[8192, 2048]`: 8 experts times 1024 tokens, hidden width 2048. -/
abbrev SX : Shape := ⟨2, ![8192, 2048]⟩
/-- The gate/up projections' shape, `[8, 2048, 8192]`. -/
abbrev SW : Shape := ⟨3, ![8, 2048, 8192]⟩
/-- The down projections' shape, `[8, 4096, 2048]`. -/
abbrev SD : Shape := ⟨3, ![8, 4096, 2048]⟩

/-- Token `t` of expert `e` is row `e * 1024 + t` of the activations. -/
def row (e : Fin 8) (t : Fin 1024) : Fin 8192 := ⟨e.val * 1024 + t.val, by have := e.isLt; have := t.isLt; omega⟩

/-- Column `i` of the gate half. -/
def gateCol (i : Fin 4096) : Fin 8192 := ⟨i.val, by have := i.isLt; omega⟩
/-- Column `i` of the up half: the gate half's width further on. -/
def upCol (i : Fin 4096) : Fin 8192 := ⟨4096 + i.val, by have := i.isLt; omega⟩

/-- The projection of token `t` of expert `e` onto output column `f`: a dot product over the hidden axis. -/
def proj (x : SX.Idx → EReal) (w : SW.Idx → EReal) (e : Fin 8) (t : Fin 1024) (f : Fin 8192) : EReal :=
  ∑ k : Fin 2048, x (ix2 (row e t) k) * w (ix3 e k f)

/-- The gated value: `up * (gate * logistic gate)`. -/
def gated (x : SX.Idx → EReal) (w : SW.Idx → EReal) (e : Fin 8) (t : Fin 1024) (i : Fin 4096) : EReal :=
  proj x w e t (upCol i) * (proj x w e t (gateCol i) * Ideal.logistic (proj x w e t (gateCol i)))

/-- The result for token `t` of expert `e` at hidden column `h`: the gated values against column `h` of the down
    projection. -/
def outAt (x : SX.Idx → EReal) (w : SW.Idx → EReal) (d : SD.Idx → EReal) (e : Fin 8) (t : Fin 1024) (h : Fin 2048) : EReal :=
  ∑ i : Fin 4096, gated x w e t i * d (ix3 e i h)

/-- The whole result `[8192, 2048]`: row `r` is token `r % 1024` of expert `r / 1024`. -/
def G (x : SX.Idx → EReal) (w : SW.Idx → EReal) (d : SD.Idx → EReal) : SX.Idx → EReal := fun j =>
  outAt x w d ⟨(j 0).val / 1024, by have := idx2_lt0 j; omega⟩ ⟨(j 0).val % 1024, Nat.mod_lt _ (by decide)⟩ (j 1)

end Cert.Moe

end
-- ==== Proof.LibTileSum.lean ====
import Mathlib.Algebra.BigOperators.Fin
import Mathlib.Algebra.BigOperators.Intervals

/-!
# Sums over consecutive indices, grouped into tiles of equal width

A sum over `K * W` consecutive natural indices equals the sum, over the `K` tiles, of the
sums over the `W` indices of each tile; tile `k` holds the indices `W * k + u`, `u < W`.
-/

namespace Cert.TileSum

/-- A sum over the first `K * W` naturals is the sum, tile by tile, of the sums over each
tile `{W * k + u | u < W}` of width `W` (both sides written over `Finset.range`). -/
theorem sum_range_tiles {M : Type*} [AddCommMonoid M] (K W : ℕ) (g : ℕ → M) :
    ∑ i ∈ Finset.range (K * W), g i
      = ∑ k ∈ Finset.range K, ∑ u ∈ Finset.range W, g (W * k + u) := by
  induction K with
  | zero => simp
  | succ K ih =>
    rw [Nat.succ_mul, Finset.sum_range_add, ih, Finset.sum_range_succ, Nat.mul_comm K W]

/-- A sum over `K * W` consecutive indices is the sum, tile by tile, of the sums over each
tile of width `W`: index `t < K * W` is `W * k + u` for a unique tile `k < K` and offset
`u < W`. -/
theorem sum_tiles {M : Type*} [AddCommMonoid M] (K W : ℕ) (g : ℕ → M) :
    ∑ t : Fin (K * W), g t.val
      = ∑ k ∈ Finset.range K, ∑ u : Fin W, g (W * k + u.val) := by
  rw [Fin.sum_univ_eq_sum_range (fun i => g i) (K * W), sum_range_tiles]
  refine Finset.sum_congr rfl fun k _ => ?_
  exact (Fin.sum_univ_eq_sum_range (fun u => g (W * k + u)) W).symm

/-- The tiled form of a sum of a function on `Fin N` with `N = K * W`: the summand at tile
`k` and offset `u` is `f` at the index `W * k + u` (which is always below `N`; the
`else` branch is never taken and is there only to make the expression total). -/
theorem sum_fin_tiles {M : Type*} [AddCommMonoid M] (K W N : ℕ) (hN : N = K * W)
    (f : Fin N → M) :
    ∑ t : Fin N, f t
      = ∑ k ∈ Finset.range K, ∑ u : Fin W,
          (if h : W * k + u.val < N then f ⟨W * k + u.val, h⟩ else 0) := by
  subst hN
  have h1 : ∑ t : Fin (K * W), f t
      = ∑ t : Fin (K * W), (fun n : ℕ => if h : n < K * W then f ⟨n, h⟩ else 0) t.val :=
    Finset.sum_congr rfl fun t _ => by simp [t.isLt]
  rw [h1, sum_tiles K W (fun n : ℕ => if h : n < K * W then f ⟨n, h⟩ else 0)]

end Cert.TileSum
-- ==== Proof.KernelPayloadSum.lean ====
import proofs.«106736_j9483287789704_2_alg».proof.Proof.MoeSpec
import proofs.«106736_j9483287789704_2_alg».proof.Proof.LibTileSum

/-!
# The result's sum over 4096 gated values, regrouped into 16 tiles of 256

The result at a token row and a hidden column is a sum over 4096 indices. Index 256 * n + j is offset j of
tile n. The sum of the first k tiles is the partial result after k steps: it is zero before the first
step, grows by one tile's sum at each step, and after 16 steps it is the whole result. Only the laws of a
commutative monoid are used: a sum is regrouped, never distributed over.
-/

noncomputable section

open scoped BigOperators

namespace Cert.Moe.Pay

open Idealize.ShloMosaic Idealize.ShloMosaic.ValueIdx

/-- Offset j of tile n among the 4096 gated values: index 256 * n + j. -/
def col (n : Fin 16) (j : Fin 256) : Fin 4096 :=
  ⟨256 * n.val + j.val, by have := n.isLt; have := j.isLt; omega⟩

/-- One tile's share of the result: the sum over the tile's 256 offsets of the gated value times the
    down projection's element. -/
def tileTerm (x : SX.Idx → EReal) (w : SW.Idx → EReal) (d : SD.Idx → EReal) (e : Fin 8) (t : Fin 1024)
    (h : Fin 2048) (n : Fin 16) : EReal :=
  ∑ j : Fin 256, Cert.Moe.gated x w e t (col n j) * d (ix3 e (col n j) h)

/-- The sum of the first k tiles' shares. -/
def partialOut (x : SX.Idx → EReal) (w : SW.Idx → EReal) (d : SD.Idx → EReal) (e : Fin 8) (t : Fin 1024)
    (h : Fin 2048) (k : ℕ) : EReal :=
  ∑ n ∈ (Finset.univ : Finset (Fin 16)).filter (fun n => n.val < k), tileTerm x w d e t h n

variable (x : SX.Idx → EReal) (w : SW.Idx → EReal) (d : SD.Idx → EReal) (e : Fin 8) (t : Fin 1024)
  (h : Fin 2048)

/-- No tile: the empty sum. -/
theorem partialOut_zero : partialOut x w d e t h 0 = 0 := by
  unfold partialOut
  rw [Finset.filter_false_of_mem (fun n _ => Nat.not_lt_zero _)]
  exact Finset.sum_empty

/-- One more tile: the tiles below k + 1 are those below k and tile k itself. -/
theorem partialOut_succ (k : ℕ) (hk : k < 16) :
    partialOut x w d e t h (k + 1) = partialOut x w d e t h k + tileTerm x w d e t h ⟨k, hk⟩ := by
  unfold partialOut
  have hs : (Finset.univ : Finset (Fin 16)).filter (fun n => n.val < k + 1)
      = insert (⟨k, hk⟩ : Fin 16) ((Finset.univ : Finset (Fin 16)).filter (fun n => n.val < k)) := by
    ext n
    simp only [Finset.mem_filter, Finset.mem_univ, true_and, Finset.mem_insert, Fin.ext_iff]
    omega
  have hn : (⟨k, hk⟩ : Fin 16) ∉ (Finset.univ : Finset (Fin 16)).filter (fun n => n.val < k) := by
    simp only [Finset.mem_filter, Finset.mem_univ, true_and]
    omega
  rw [hs, Finset.sum_insert hn, add_comm]

/-- All 16 tiles: the whole sum over the 4096 gated values. -/
theorem partialOut_full : partialOut x w d e t h 16 = Cert.Moe.outAt x w d e t h := by
  unfold partialOut Cert.Moe.outAt
  rw [Finset.filter_true_of_mem (fun n _ => n.isLt)]
  let f : Fin 4096 → EReal := fun i => Cert.Moe.gated x w e t i * d (ix3 e i h)
  let F : ℕ → EReal := fun k => ∑ u : Fin 256, (if hh : 256 * k + u.val < 4096 then f ⟨256 * k + u.val, hh⟩ else 0)
  have h1 : ∀ n : Fin 16, tileTerm x w d e t h n = F n.val := by
    intro n
    unfold tileTerm
    refine Finset.sum_congr rfl fun j _ => ?_
    have hlt : 256 * n.val + j.val < 4096 := by have := n.isLt; have := j.isLt; omega
    rw [dif_pos hlt]
    rfl
  exact (Finset.sum_congr rfl (fun n _ => h1 n)).trans
    ((Fin.sum_univ_eq_sum_range F 16).trans (Cert.TileSum.sum_fin_tiles 16 256 4096 rfl f).symm)

end Cert.Moe.Pay

end
-- ==== Proof.KernelAccum.lean ====
import proofs.«106736_j9483287789704_2_alg».proof.Proof.KernelPayload
import proofs.«106736_j9483287789704_2_alg».proof.Proof.KernelPayloadSum

/-!
# One step adds one tile; sixteen steps make the result

When the four loaded tiles are the activations of expert e, tile n of its gate and up projections and
tile n of its down projection, the value a step stores is the running sum plus tile n's share of the
result. Starting from the zero stored at the first step, the running sum after step n is the sum of the
first n + 1 tiles' shares, and after the sixteenth step it is the whole result.
-/

noncomputable section

open scoped BigOperators

namespace Cert.Moe.Pay

open Cert.KernelIdeal Cert.KernelIdeal.Gen Idealize.ShloMosaic Idealize.ShloMosaic.ValueIdx

/-- One step: with the loaded tiles those of expert e and tile n, the stored value is the running sum plus
    tile n's share. The two sides have the same grouping, term by term. -/
theorem pay2_tile (x : SX.Idx → EReal) (w : SW.Idx → EReal) (d : SD.Idx → EReal) (e : Fin 8) (n : Fin 16)
    (v3 : Vec Ideal S1x1024x2048 .f32) (v6 v9 : Vec Ideal S1x2048x256 .f32)
    (v12 : Vec Ideal S1x256x2048 .f32) (v21 : Vec Ideal S1024x2048 .f32)
    (h3 : ∀ (r : Fin 1024) (k : Fin 2048), v3 (ix3 0 r k) = x (ix2 (Cert.Moe.row e r) k))
    (h6 : ∀ (k : Fin 2048) (j : Fin 256), v6 (ix3 0 k j) = w (ix3 e k (Cert.Moe.gateCol (col n j))))
    (h9 : ∀ (k : Fin 2048) (j : Fin 256), v9 (ix3 0 k j) = w (ix3 e k (Cert.Moe.upCol (col n j))))
    (h12 : ∀ (j : Fin 256) (h : Fin 2048), v12 (ix3 0 j h) = d (ix3 e (col n j) h))
    (r : Fin 1024) (h : Fin 2048) :
    k0_pay2 (F := Ideal) v3 v6 v9 v12 v21 (ix2 r h) = v21 (ix2 r h) + tileTerm x w d e r h n := by
  rw [pay2_apply]
  unfold tileTerm Cert.Moe.gated Cert.Moe.proj
  simp only [h3, h6, h9, h12]

section Accumulate

variable (x : SX.Idx → EReal) (w : SW.Idx → EReal) (d : SD.Idx → EReal) (e : Fin 8)
  (acc : ℕ → Vec Ideal S1024x2048 .f32)
  (b3 : ℕ → Vec Ideal S1x1024x2048 .f32) (b6 b9 : ℕ → Vec Ideal S1x2048x256 .f32)
  (b12 : ℕ → Vec Ideal S1x256x2048 .f32)
  (h3 : ∀ (n : ℕ), n < 16 → ∀ (r : Fin 1024) (k : Fin 2048), b3 n (ix3 0 r k) = x (ix2 (Cert.Moe.row e r) k))
  (h6 : ∀ (n : ℕ) (hn : n < 16) (k : Fin 2048) (j : Fin 256),
    b6 n (ix3 0 k j) = w (ix3 e k (Cert.Moe.gateCol (col ⟨n, hn⟩ j))))
  (h9 : ∀ (n : ℕ) (hn : n < 16) (k : Fin 2048) (j : Fin 256),
    b9 n (ix3 0 k j) = w (ix3 e k (Cert.Moe.upCol (col ⟨n, hn⟩ j))))
  (h12 : ∀ (n : ℕ) (hn : n < 16) (j : Fin 256) (h : Fin 2048),
    b12 n (ix3 0 j h) = d (ix3 e (col ⟨n, hn⟩ j) h))
  (h0 : acc 0 = k0_pay2 (F := Ideal) (b3 0) (b6 0) (b9 0) (b12 0) (k0_pay1 (F := Ideal)))
  (hs : ∀ (n : ℕ), n + 1 < 16 →
    acc (n + 1) = k0_pay2 (F := Ideal) (b3 (n + 1)) (b6 (n + 1)) (b9 (n + 1)) (b12 (n + 1)) (acc n))

include h3 h6 h9 h12 h0 hs in
/-- After step n the running sum is the sum of the first n + 1 tiles' shares. -/
theorem acc_partial (n : ℕ) (hn : n < 16) (r : Fin 1024) (h : Fin 2048) :
    acc n (ix2 r h) = partialOut x w d e r h (n + 1) := by
  induction n with
  | zero =>
    rw [h0, pay2_tile x w d e ⟨0, hn⟩ _ _ _ _ _ (h3 0 hn) (h6 0 hn) (h9 0 hn) (h12 0 hn), pay1_apply,
      zero_add, partialOut_succ x w d e r h 0 hn, partialOut_zero, zero_add]
  | succ n ih =>
    rw [hs n hn, pay2_tile x w d e ⟨n + 1, hn⟩ _ _ _ _ _ (h3 (n + 1) hn) (h6 (n + 1) hn) (h9 (n + 1) hn)
      (h12 (n + 1) hn), ih (by omega), ← partialOut_succ x w d e r h (n + 1) hn]

include h3 h6 h9 h12 h0 hs in
/-- After the sixteenth step the running sum is the result. -/
theorem acc_full (r : Fin 1024) (h : Fin 2048) : acc 15 (ix2 r h) = Cert.Moe.outAt x w d e r h := by
  rw [acc_partial x w d e acc b3 b6 b9 b12 h3 h6 h9 h12 h0 hs 15 (by omega) r h]
  exact partialOut_full x w d e r h

end Accumulate

end Cert.Moe.Pay

end
-- ==== Proof.KI.AccValue.lean ====
import proofs.«106736_j9483287789704_2_alg».proof.Proof.KI.Acc
import proofs.«106736_j9483287789704_2_alg».proof.Proof.KI.BlockReads
import proofs.«106736_j9483287789704_2_alg».proof.Proof.KI.OutArray
import proofs.«106736_j9483287789704_2_alg».proof.Proof.KI.Region
import proofs.«106736_j9483287789704_2_alg».proof.Proof.KernelAccum

/-!
# The result array of the kernel region, over the extended reals

Point 16 * e + n is tile n of expert e. The four input blocks there are the expert's activations, tile n of
the gate and of the up half of its projection, and tile n of its down projection; so the running sum after
the point is the sum of the first n + 1 tiles' shares of the expert's result, and after the expert's last
point it is the result. That point copies it to the result window, whose blocks make up the result array.
-/

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Cert.Moe Cert.Moe.Pay

variable (m : (ℓ : Loc nD τ sig) → Buf (Elt Ideal) ℓ)

/-- The activations, the projection weights and the down projections as launched, as functions of an index. -/
abbrev argX (c : Dev nD) : Cert.Moe.SX.Idx → EReal := m ((c : Thread nD τ).loc main_arg0)
abbrev argW (c : Dev nD) : Cert.Moe.SW.Idx → EReal := m ((c : Thread nD τ).loc main_arg1)
abbrev argD (c : Dev nD) : Cert.Moe.SD.Idx → EReal := m ((c : Thread nD τ).loc main_arg2)

/-- The running sum depends on the point's number only, not on how its bound is proved or the number spelt. -/
theorem accAt_congr (c : Dev nD) (a b : ℕ) (ha : a < cfg0.N) (hb : b < cfg0.N) (hab : a = b) :
    accAt m c a ha = accAt m c b hb := by
  subst hab; rfl

/-- Tile n (read modulo 16) of expert e, as a grid point. -/
def tilePt (e : Fin 8) (n : ℕ) : Fin cfg0.N :=
  ⟨16 * e.val + n % 16, by
    have hN : cfg0.N = 128 := N_0
    have := e.isLt
    have := Nat.mod_lt n (show 0 < 16 by decide)
    omega⟩

theorem tilePt_val (e : Fin 8) (n : ℕ) : (tilePt e n).val = 16 * e.val + n % 16 := rfl

/-- Its expert is e. -/
theorem pe_tilePt (e : Fin 8) (n : ℕ) : pe (tilePt e n) = e :=
  Fin.ext (by
    show (16 * e.val + n % 16) / 16 = e.val
    have := Nat.mod_lt n (show 0 < 16 by decide)
    omega)

/-- After the last point of expert e the running sum is the expert's result. -/
theorem accAt_last (c : Dev nD) (e : Fin 8) (r : Fin 1024) (h : Fin 2048) :
    accAt m c (16 * e.val + 15) (by have hN : cfg0.N = 128 := N_0; have := e.isLt; omega) (ix2 r h)
      = Cert.Moe.outAt (argX m c) (argW m c) (argD m c) e r h := by
  have key := acc_full (argX m c) (argW m c) (argD m c) e
    (fun n => accAt m c (tilePt e n).val (tilePt e n).isLt)
    (fun n => iblk m c 0 (tilePt e n)) (fun n => iblk m c 1 (tilePt e n)) (fun n => iblk m c 2 (tilePt e n))
    (fun n => iblk m c 3 (tilePt e n))
    (fun n hn r k => by
      show (iblk m c 0 (tilePt e n) : Vec Ideal S1x1024x2048 .f32) (ix3 (0 : Fin 1) r k) = _
      rw [iblk0_apply, V1_v0_apply, pe_tilePt]
      rfl)
    (fun n hn k j => by
      show (iblk m c 1 (tilePt e n) : Vec Ideal S1x2048x256 .f32) (ix3 (0 : Fin 1) k j) = _
      rw [iblk1_apply, V1_arg1, pe_tilePt]
      have hi : (⟨256 * ((tilePt e n).val % 16) + j.val, by have := j.isLt; omega⟩ : Fin 8192)
          = Cert.Moe.gateCol (col ⟨n, hn⟩ j) :=
        Fin.ext (by show 256 * ((16 * e.val + n % 16) % 16) + j.val = 256 * n + j.val; omega)
      rw [hi])
    (fun n hn k j => by
      show (iblk m c 2 (tilePt e n) : Vec Ideal S1x2048x256 .f32) (ix3 (0 : Fin 1) k j) = _
      rw [iblk2_apply, V1_arg1, pe_tilePt]
      have hi : (⟨4096 + 256 * ((tilePt e n).val % 16) + j.val, by have := j.isLt; omega⟩ : Fin 8192)
          = Cert.Moe.upCol (col ⟨n, hn⟩ j) :=
        Fin.ext (by show 4096 + 256 * ((16 * e.val + n % 16) % 16) + j.val = 4096 + (256 * n + j.val); omega)
      rw [hi])
    (fun n hn j h => by
      show (iblk m c 3 (tilePt e n) : Vec Ideal S1x256x2048 .f32) (ix3 (0 : Fin 1) j h) = _
      rw [iblk3_apply, V1_arg2, pe_tilePt]
      have hi : (⟨256 * ((tilePt e n).val % 16) + j.val, by have := j.isLt; omega⟩ : Fin 4096)
          = col ⟨n, hn⟩ j :=
        Fin.ext (by show 256 * ((16 * e.val + n % 16) % 16) + j.val = 256 * n + j.val; omega)
      rw [hi])
    (accAt_first m c (tilePt e 0) (by show (16 * e.val + 0 % 16) % 16 = 0; omega))
    (fun n hn => by
      show accAt m c (tilePt e (n + 1)).val (tilePt e (n + 1)).isLt = _
      rw [accAt_next m c (tilePt e (n + 1)) (by show ¬(16 * e.val + (n + 1) % 16) % 16 = 0; omega)]
      unfold tileStep
      rw [accAt_congr m c ((tilePt e (n + 1)).val - 1) (tilePt e n).val _ (tilePt e n).isLt
        (by show 16 * e.val + (n + 1) % 16 - 1 = 16 * e.val + n % 16; omega)])
    r h
  rw [← key]
  exact congrFun (accAt_congr m c _ _ _ _ (by show 16 * e.val + 15 = 16 * e.val + 15 % 16; omega)) _

/-- What the last point of an expert leaves in the result window's buffer: the expert's result. -/
theorem outBuf_last (c : Dev nD) (t : Fin cfg0.N) (ht : t.val % 16 = 15) (r : Fin 1024) (h : Fin 2048) :
    outBuf m c t (ix3 (0 : Fin 1) r h)
      = Cert.Moe.outAt (argX m c) (argW m c) (argD m c)
          (⟨t.val / 16, by have := point_lt t; omega⟩ : Fin 8) r h := by
  show k0_pay3 (F := Ideal) (accAt m c t.val t.isLt) (ix3 (0 : Fin 1) r h) = _
  rw [pay3_apply, ← accAt_last m c (⟨t.val / 16, by have := point_lt t; omega⟩ : Fin 8) r h]
  exact congrFun (accAt_congr m c _ _ _ _ (by show t.val = 16 * (t.val / 16) + 15; omega)) _

/-- The result array the region leaves: at (e, r, h) the result for token r of expert e at hidden column h. -/
theorem outOf_eq (c : Dev nD) :
    (outOf m (outBuf m) (PhiF m) c : S8x1024x2048.Idx → EReal)
      = fun i => Cert.Moe.outAt (argX m c) (argW m c) (argD m c) (i 0) (i 1) (i 2) :=
  out_array m c (outBuf m c) (PhiF m c)
    (fun i => Cert.Moe.outAt (argX m c) (argW m c) (argD m c) (i 0) (i 1) (i 2))
    (fun t ht r h => outBuf_last m c t ht r h)

end Cert.KernelIdeal.Hand

end
-- ==== Proof.ResultIsG.lean ====
/-
  The last reshape of the kernel's result is `Cert.Moe.G`.

  The kernel region leaves an array `[8, 1024, 2048]` whose element `(e, r, h)` is the result for token `r` of expert
  `e` at hidden column `h`; the program's last operation reads it as `[8192, 2048]`. Element `(j0, j1)` of the reshaped
  array sits at the same row-major position as element `(j0 / 1024, j0 % 1024, j1)` of the array:
  `((j0 / 1024) * 1024 + j0 % 1024) * 2048 + j1 = j0 * 2048 + j1`.
-/
import proofs.«106736_j9483287789704_2_alg».proof.Proof.MoeSpec
import proofs.«106736_j9483287789704_2_alg».proof.Proof.Gen.KernelIdeal
import Idealize.ShloMosaic.Lib.Pipeline.Value
import Idealize.ShloMosaic.Lib.ValueIdx

noncomputable section

namespace Cert.Moe.Res

open Cert.KernelIdeal Idealize.ShloMosaic Idealize.ShloMosaic.ValueIdx

/-- An array `[8, 1024, 2048]` that holds `outAt … e r h` at `(e, r, h)`, reshaped to `[8192, 2048]`, is `G`. The
    reshape's side condition is taken as a hypothesis, so the statement meets the operation whichever proof of the
    condition it carries. -/
theorem reshape_is_G (x : Cert.Moe.SX.Idx → EReal) (w : Cert.Moe.SW.Idx → EReal) (d : Cert.Moe.SD.Idx → EReal)
    (o3 : S8x1024x2048.Idx → Elt Ideal .f32) (hc : S8x1024x2048.ShapeCasts S8192x2048)
    (ho : ∀ (e : Fin 8) (r : Fin 1024) (h : Fin 2048), o3 (ix3 e r h) = Cert.Moe.outAt x w d e r h) :
    shapeCast S8192x2048 o3 hc = Cert.Moe.G x w d := by
  funext j
  have h0 := idx2_lt0 j
  have h1 := idx2_lt1 j
  rw [shapeCast_apply o3 hc j
    (ix3 (n0 := 8) (n1 := 1024) (n2 := 2048) ⟨(j 0).val / 1024, by omega⟩ ⟨(j 0).val % 1024, Nat.mod_lt _ (by decide)⟩
      ⟨(j 1).val, h1⟩)
    (by
      rewrite [Shape.rowMajor_val_three, Shape.rowMajor_val_two]
      show ((j 0).val / 1024 * 1024 + (j 0).val % 1024) * 2048 + (j 1).val = (j 0).val * 2048 + (j 1).val
      omega)]
  rw [ho]
  rfl

end Cert.Moe.Res

end
-- ==== Proof.KernelValue.lean ====
/-
  The idealized kernel's value: at the end of its run the result buffer holds, index by index, the function `G` of the
  three argument arrays as launched.

  After an expert's last tile the accumulator holds, for every token row and hidden column, the sum over all sixteen
  tiles of the gated values against the down projection, which is the sum over all 4096 intermediate columns; the
  pipeline writes that block back to the expert's rows of the result array, and the last reshape reads row
  `e * 1024 + r` of the result from entry `(e, r)`.
-/
import proofs.«106736_j9483287789704_2_alg».proof.Proof.KI.Main
import proofs.«106736_j9483287789704_2_alg».proof.Proof.KI.Result
import proofs.«106736_j9483287789704_2_alg».proof.Proof.KI.AccValue
import proofs.«106736_j9483287789704_2_alg».proof.Proof.ResultIsG

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result buffer after the run is `G` of the launch arrays. -/
theorem result_eq_G (c : Dev nD) :
    (V3 m (outOf m (outBuf m) (PhiF m)) c main_v2 : S8192x2048.Idx → EReal)
      = Cert.Moe.G (m ((c.tc : Thread nD τ).loc main_arg0)) (m ((c.tc : Thread nD τ).loc main_arg1)) (m ((c.tc : Thread nD τ).loc main_arg2)) := by
  exact (V3_v2 m _ c).trans (Cert.Moe.Res.reshape_is_G _ _ _ _ _ (fun e r h => congrFun (outOf_eq m c) (ix3 e r h)))

/-- The idealized kernel's run with its result named. -/
theorem value_run :
    θ_run (defs (F := Ideal)) (onTc (τ := τ) (main (F := Ideal))) ⟨m, fun _ => 0, ρ⟩ (fun r => ∀ c : Dev nD,
      r.2.mem ((c.tc : Thread nD τ).loc main_v2)
        = Cert.Moe.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq_G m c), (h c).2⟩) (run_main m ρ)

end Cert.KernelIdeal.Hand

end
-- ==== Proof.RefIsG.lean ====
/-
  The reference program computes the function `Cert.Moe.G`.

  The reference reshapes the activations `[8192, 2048]` to `[8, 1024, 2048]` (row `e * 1024 + t` becomes `(e, t)`),
  takes the batched product with the gate/up projections, slices the result's last axis into its gate half
  `[0, 4096)` and its up half `[4096, 8192)`, forms `up * (gate * (1 / (1 + exp (-gate))))`, takes the batched
  product with the down projections and reshapes `[8, 1024, 2048]` back to `[8192, 2048]`. Each stage is read at an
  index `ix3 e t _`, innermost stage first; the last step names the expert and the token of a row of the result.
-/
import proofs.«106736_j9483287789704_2_alg».proof.Proof.Gen.ReferenceIdeal.Read
import proofs.«106736_j9483287789704_2_alg».proof.Proof.MoeSpec
import Idealize.ShloMosaic.Lib.IdealHost

noncomputable section

open scoped BigOperators

namespace Cert.Moe.Ref

open Cert.ReferenceIdeal Cert.ReferenceIdeal.Gen Cert.ReferenceIdeal.Read Idealize.ShloMosaic Idealize.ShloMosaic.ValueIdx

variable (x0 : (⟨S8192x2048, .f32⟩ : BufTy).Contents (Elt Ideal))
  (x1 : (⟨S8x2048x8192, .f32⟩ : BufTy).Contents (Elt Ideal))
  (x2 : (⟨S8x4096x2048, .f32⟩ : BufTy).Contents (Elt Ideal))

/-- Element `(e, t, k)` of the reshaped activations is element `(e * 1024 + t, k)` of the activations:
    `((e * 1024 + t) * 2048 + k) / 2048 = e * 1024 + t` and the remainder is `k`. -/
theorem v0_at (e : Fin 8) (t : Fin 1024) (k : Fin 2048) :
    val_main_v0 (F := Ideal) x0 (ix3 e t k) = x0 (ix2 (row e t) k) := by
  rw [val_main_v0_apply]
  congr 1
  funext a
  have he := e.isLt; have ht := t.isLt; have hk := k.isLt
  match a with
  | ⟨0, _⟩ => exact Fin.ext (show ((e.val * 1024 + t.val) * 2048 + k.val) / 2048 = e.val * 1024 + t.val by omega)
  | ⟨1, _⟩ => exact Fin.ext (show ((e.val * 1024 + t.val) * 2048 + k.val) % 2048 = k.val by omega)

/-- Element `(e, t, f)` of the first product is the projection of token `t` of expert `e` onto column `f`. -/
theorem v1_at (e : Fin 8) (t : Fin 1024) (f : Fin 8192) :
    val_main_v1 (F := Ideal) x0 x1 (ix3 e t f) = proj x0 x1 e t f := by
  rw [val_main_v1_apply]
  unfold proj
  refine Finset.sum_congr rfl fun k _ => ?_
  have hl : lidx_main_v1 (ix3 e t f) k = ix3 e t k := by
    funext a
    match a with
    | ⟨0, _⟩ => rfl
    | ⟨1, _⟩ => rfl
    | ⟨2, _⟩ => rfl
  have hr : ridx_main_v1 (ix3 e t f) k = ix3 e k f := by
    funext a
    match a with
    | ⟨0, _⟩ => rfl
    | ⟨1, _⟩ => rfl
    | ⟨2, _⟩ => rfl
  rw [hl, hr, v0_at]

/-- The first slice is the gate half. -/
theorem v2_at (e : Fin 8) (t : Fin 1024) (i : Fin 4096) :
    val_main_v2 (F := Ideal) x0 x1 (ix3 e t i) = proj x0 x1 e t (gateCol i) := by
  rw [val_main_v2_apply]
  have h : idx_main_v2 (ix3 e t i) = ix3 e t (gateCol i) := by
    funext a
    match a with
    | ⟨0, _⟩ => rfl
    | ⟨1, _⟩ => rfl
    | ⟨2, _⟩ => rfl
  rw [h, v1_at]

/-- The second slice is the up half. -/
theorem v3_at (e : Fin 8) (t : Fin 1024) (i : Fin 4096) :
    val_main_v3 (F := Ideal) x0 x1 (ix3 e t i) = proj x0 x1 e t (upCol i) := by
  rw [val_main_v3_apply]
  have h : idx_main_v3 (ix3 e t i) = ix3 e t (upCol i) := by
    funext a
    match a with
    | ⟨0, _⟩ => rfl
    | ⟨1, _⟩ => rfl
    | ⟨2, _⟩ => rfl
  rw [h, v1_at]

/-- The quotient `1 / (1 + exp (-g))`, with both ones read from the word `0x3F800000`, is the logistic of the gate
    value `g`. -/
theorem sig_at (e : Fin 8) (t : Fin 1024) (i : Fin 4096) :
    val_main_call0_v5 (F := Ideal) x0 x1 (ix3 e t i) = Ideal.logistic (proj x0 x1 e t (gateCol i)) := by
  rw [val_main_call0_v5_apply, val_main_call0_v4_apply, val_main_call0_cst_0_apply, val_main_call0_v3_apply,
    val_main_call0_v2_apply, val_main_call0_cst_apply, val_main_call0_v1_apply, val_main_call0_v0_apply, v2_at]
  rw [Ideal.ofBits_def, Ideal.ofBits_one_f32]
  rfl

/-- Element `(e, t, i)` of the gated product is the gated value. -/
theorem v5_at (e : Fin 8) (t : Fin 1024) (i : Fin 4096) :
    val_main_v5 (F := Ideal) x0 x1 (ix3 e t i) = gated x0 x1 e t i := by
  rw [val_main_v5_apply, val_main_v4_apply, v3_at, v2_at, sig_at]
  rfl

/-- Element `(e, t, h)` of the second product is the result for token `t` of expert `e` at column `h`. -/
theorem v6_at (e : Fin 8) (t : Fin 1024) (h : Fin 2048) :
    val_main_v6 (F := Ideal) x0 x1 x2 (ix3 e t h) = outAt x0 x1 x2 e t h := by
  rw [val_main_v6_apply]
  unfold outAt
  refine Finset.sum_congr rfl fun k _ => ?_
  have hl : lidx_main_v6 (ix3 e t h) k = ix3 e t k := by
    funext a
    match a with
    | ⟨0, _⟩ => rfl
    | ⟨1, _⟩ => rfl
    | ⟨2, _⟩ => rfl
  have hr : ridx_main_v6 (ix3 e t h) k = ix3 e k h := by
    funext a
    match a with
    | ⟨0, _⟩ => rfl
    | ⟨1, _⟩ => rfl
    | ⟨2, _⟩ => rfl
  rw [hl, hr, v5_at]

/-- The reference computes `G`: element `(r, h)` of the result is element `(r / 1024, r % 1024, h)` of the second
    product, since `(r * 2048 + h) / 2097152 = r / 1024`, `(r * 2048 + h) / 2048 % 1024 = r % 1024` and
    `(r * 2048 + h) % 2048 = h`. -/
theorem ref_eq_G :
    val_main_v7 (F := Ideal) x0 x1 x2 = Cert.Moe.G x0 x1 x2 := by
  funext j
  rw [val_main_v7_apply]
  have h0 := idx2_lt0 j
  have h1 := idx2_lt1 j
  have h : idx_main_v7 j
      = ix3 (n0 := 8) (n1 := 1024) (n2 := 2048) ⟨(j 0).val / 1024, by omega⟩ ⟨(j 0).val % 1024, Nat.mod_lt _ (by decide)⟩ (j 1) := by
    funext a
    match a with
    | ⟨0, _⟩ => exact Fin.ext (show ((j 0).val * 2048 + (j 1).val) / 2097152 = (j 0).val / 1024 by omega)
    | ⟨1, _⟩ => exact Fin.ext (show ((j 0).val * 2048 + (j 1).val) / 2048 % 1024 = (j 0).val % 1024 by omega)
    | ⟨2, _⟩ => exact Fin.ext (show ((j 0).val * 2048 + (j 1).val) % 2048 = (j 1).val by omega)
  rw [h]
  exact v6_at x0 x1 x2 _ _ _

end Cert.Moe.Ref

end
-- ==== Proof.lean ====
/-
  The certificate: a fused mixture-of-experts feed-forward kernel against its plain reference.

  Both programs compute, for each of 8 experts and each of its 1024 token rows, the SwiGLU-gated feed-forward
  `sum over i of (up_i * (gate_i * logistic gate_i)) * down_i`, where gate and up are the two halves of one projection of
  the row. The reference computes the projection whole, splits it, gates, and contracts all 4096 intermediate columns at
  once. The kernel walks a grid of 8 experts by 16 tiles of 256 columns: per tile it projects the row onto the tile's
  gate and up columns (two windows on the same weight array), gates, contracts the tile against the matching rows of
  the down projection, and adds the product to a scratch accumulator that it zeroes at an expert's first tile and
  copies to the output at its last.

  Over the extended reals the kernel's logistic is the reference's `1 / (1 + exp (-g))` by definition, a change of
  float format is the identity, and a product into a zero accumulator is the plain sum; so the two results differ only
  in how one sum of 4096 terms is grouped (16 groups of 256, accumulated left to right), and addition on the extended
  reals is commutative and associative. No input needs to be finite for that, and the precondition is never opened.

  The frames: the reference is a straight line of host operations; the kernel program is a reshape, the pipelined
  region, and a reshape. The region's two windows on one array hold half a share of it each while the region runs.
  The word-level kernel and its idealization are the same text read at two instances; each frame is proved once,
  generic in the instance, in its program's own namespace.
-/
import proofs.«106736_j9483287789704_2_alg».proof.Defs
import proofs.«106736_j9483287789704_2_alg».proof.Proof.Gen.Kernel
import proofs.«106736_j9483287789704_2_alg».proof.Proof.Gen.KernelIdeal
import proofs.«106736_j9483287789704_2_alg».proof.Proof.Gen.ReferenceIdeal
import proofs.«106736_j9483287789704_2_alg».proof.Proof.Gen.Pre_finite_inputs
import proofs.«106736_j9483287789704_2_alg».proof.Proof.Gen.ReferenceIdeal.Run
import proofs.«106736_j9483287789704_2_alg».proof.Proof.Gen.ReferenceIdeal.Read
import proofs.«106736_j9483287789704_2_alg».proof.Proof.K.Main
import proofs.«106736_j9483287789704_2_alg».proof.Proof.KernelValue
import proofs.«106736_j9483287789704_2_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the three arguments, both programs end with the result `G` of those arguments. -/
theorem algebraic : Cert.algebraic_KernelIdeal_ReferenceIdeal := by
  intro m ρ m' ρ' _ hagree
  refine ⟨fun c => Cert.Moe.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Moe.Ref.ref_eq_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
